-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64x64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x64 .f32) (main_arg3 : FVec F S64x64 .f32) (main_arg4 : FVec F S64x64 .f32) (main_arg5 : FVec F S64 .f32) (main_arg6 : FVec F S64x64 .f32) (main_arg7 : FVec F S64x64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S64x192 : Shape := ⟨2, ![64, 192]⟩
abbrev S_ : Shape := ⟨0, ![]⟩
abbrev S192 : Shape := ⟨1, ![192]⟩
abbrev S1x192 : Shape := ⟨2, ![1, 192]⟩
abbrev S100000x192 : Shape := ⟨2, ![100000, 192]⟩
abbrev S5000x64 : Shape := ⟨2, ![5000, 64]⟩
abbrev S5000x192 : Shape := ⟨2, ![5000, 192]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩

abbrev nBuf : Space → Nat
  | .hbm => 138
  | .vmem => 28
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64x64, .f32⟩
  | 4 => ⟨S64x64, .f32⟩
  | 5 => ⟨S64, .f32⟩
  | 6 => ⟨S64x64, .f32⟩
  | 7 => ⟨S64x64, .f32⟩
  | 8 => ⟨S64x64, .f32⟩
  | 9 => ⟨S64, .f32⟩
  | 10 => ⟨S1x1250000, .i32⟩
  | 11 => ⟨S1250000, .i32⟩
  | 12 => ⟨S1x1250000, .i32⟩
  | 13 => ⟨S1250000, .i32⟩
  | 14 => ⟨S64x192, .f32⟩
  | 15 => ⟨S_, .f32⟩
  | 16 => ⟨S64, .f32⟩
  | 17 => ⟨S192, .f32⟩
  | 18 => ⟨S1x192, .f32⟩
  | 19 => ⟨S100000x192, .f32⟩
  | 20 => ⟨S100000x64, .f32⟩
  | 21 => ⟨S100000x64, .f32⟩
  | 22 => ⟨S100000x64, .f32⟩
  | 23 => ⟨S_, .i32⟩
  | 24 => ⟨S1250000, .i32⟩
  | 25 => ⟨S1250000, .i1⟩
  | 26 => ⟨S_, .i32⟩
  | 27 => ⟨S1250000, .i32⟩
  | 28 => ⟨S1250000, .i32⟩
  | 29 => ⟨S1250000, .i32⟩
  | 30 => ⟨S1250000x1, .i32⟩
  | 31 => ⟨S1250000x64, .f32⟩
  | 32 => ⟨S_, .f32⟩
  | 33 => ⟨S100000x64, .f32⟩
  | 34 => ⟨S1250000x1, .i32⟩
  | 35 => ⟨S100000x64, .f32⟩
  | 36 => ⟨S_, .f32⟩
  | 37 => ⟨S1250000, .f32⟩
  | 38 => ⟨S_, .f32⟩
  | 39 => ⟨S100000, .f32⟩
  | 40 => ⟨S1250000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x64, .f32⟩
  | 47 => ⟨S100000x64, .f32⟩
  | 48 => ⟨S_, .i32⟩
  | 49 => ⟨S1250000, .i32⟩
  | 50 => ⟨S1250000, .i1⟩
  | 51 => ⟨S_, .i32⟩
  | 52 => ⟨S1250000, .i32⟩
  | 53 => ⟨S1250000, .i32⟩
  | 54 => ⟨S1250000, .i32⟩
  | 55 => ⟨S1250000x1, .i32⟩
  | 56 => ⟨S1250000x64, .f32⟩
  | 57 => ⟨S_, .f32⟩
  | 58 => ⟨S100000x64, .f32⟩
  | 59 => ⟨S1250000x1, .i32⟩
  | 60 => ⟨S100000x64, .f32⟩
  | 61 => ⟨S_, .f32⟩
  | 62 => ⟨S1250000, .f32⟩
  | 63 => ⟨S_, .f32⟩
  | 64 => ⟨S100000, .f32⟩
  | 65 => ⟨S1250000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S100000x64, .f32⟩
  | 74 => ⟨S1x1250000, .i32⟩
  | 75 => ⟨S1250000, .i32⟩
  | 76 => ⟨S1x1250000, .i32⟩
  | 77 => ⟨S1250000, .i32⟩
  | 78 => ⟨S64x192, .f32⟩
  | 79 => ⟨S_, .f32⟩
  | 80 => ⟨S64, .f32⟩
  | 81 => ⟨S192, .f32⟩
  | 82 => ⟨S1x192, .f32⟩
  | 83 => ⟨S100000x192, .f32⟩
  | 84 => ⟨S100000x64, .f32⟩
  | 85 => ⟨S100000x64, .f32⟩
  | 86 => ⟨S100000x64, .f32⟩
  | 87 => ⟨S_, .i32⟩
  | 88 => ⟨S1250000, .i32⟩
  | 89 => ⟨S1250000, .i1⟩
  | 90 => ⟨S_, .i32⟩
  | 91 => ⟨S1250000, .i32⟩
  | 92 => ⟨S1250000, .i32⟩
  | 93 => ⟨S1250000, .i32⟩
  | 94 => ⟨S1250000x1, .i32⟩
  | 95 => ⟨S1250000x64, .f32⟩
  | 96 => ⟨S_, .f32⟩
  | 97 => ⟨S100000x64, .f32⟩
  | 98 => ⟨S1250000x1, .i32⟩
  | 99 => ⟨S100000x64, .f32⟩
  | 100 => ⟨S_, .f32⟩
  | 101 => ⟨S1250000, .f32⟩
  | 102 => ⟨S_, .f32⟩
  | 103 => ⟨S100000, .f32⟩
  | 104 => ⟨S1250000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x64, .f32⟩
  | 111 => ⟨S100000x64, .f32⟩
  | 112 => ⟨S_, .i32⟩
  | 113 => ⟨S1250000, .i32⟩
  | 114 => ⟨S1250000, .i1⟩
  | 115 => ⟨S_, .i32⟩
  | 116 => ⟨S1250000, .i32⟩
  | 117 => ⟨S1250000, .i32⟩
  | 118 => ⟨S1250000, .i32⟩
  | 119 => ⟨S1250000x1, .i32⟩
  | 120 => ⟨S1250000x64, .f32⟩
  | 121 => ⟨S_, .f32⟩
  | 122 => ⟨S100000x64, .f32⟩
  | 123 => ⟨S1250000x1, .i32⟩
  | 124 => ⟨S100000x64, .f32⟩
  | 125 => ⟨S_, .f32⟩
  | 126 => ⟨S1250000, .f32⟩
  | 127 => ⟨S_, .f32⟩
  | _ => ⟨S100000x64, .f32⟩

abbrev hbmTy0_1 (i : Nat) : BufTy := match i % 128 with
  | 0 => ⟨S100000, .f32⟩
  | 1 => ⟨S1250000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x64, .f32⟩
  | 8 => ⟨S100000x64, .f32⟩
  | 9 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x192, .f32⟩
  | .local _ .vmem, ⟨3, _⟩ => ⟨S1x192, .f32⟩
  | .local _ .vmem, ⟨4, _⟩ => ⟨S5000x192, .f32⟩
  | .local _ .vmem, ⟨5, _⟩ => ⟨S5000x192, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x192, .f32⟩
  | .local _ .vmem, ⟨17, _⟩ => ⟨S1x192, .f32⟩
  | .local _ .vmem, ⟨18, _⟩ => ⟨S5000x192, .f32⟩
  | .local _ .vmem, ⟨19, _⟩ => ⟨S5000x192, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_c_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_cst_22 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_23 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  concatenates_S64x64_S64x64_S64x64_S64x192_d1 : Shape.Concatenates [S64x64, S64x64, S64x64] S64x192 1
  bcast_S_S64 : S_.BroadcastsInDim S64 (![] : Fin 0 → Fin S64.rank)
  concatenates_S64_S64_S64_S192_d0 : Shape.Concatenates [S64, S64, S64] S192 0
  shapeCasts_S192_S1x192 : S192.ShapeCasts S1x192
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S5000x64_S5000x64 : S5000x64.ShapeCasts S5000x64
  dot_S5000x64_S64x192_S5000x192_1_0_0_1_n_n_wf : DotDims.WF S5000x64 S64x192 S5000x192 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x192.size a ≤ S100000x192.size a
  hwx0_3 : ∀ i : grid0.Coords, EltTy.bits .f32 = 32 ∨ (Rect.block (s := S100000x192) S5000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x192.size a ≤ S64x192.size a
  hwx2_1 : ∀ i : grid2.Coords, EltTy.bits .f32 = 32 ∨ (Rect.block (s := S64x192) S64x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x192.size a ≤ S1x192.size a
  hwx2_2 : ∀ i : grid2.Coords, EltTy.bits .f32 = 32 ∨ (Rect.block (s := S1x192) S1x192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x192.size a ≤ S100000x192.size a
  hwx2_3 : ∀ i : grid2.Coords, EltTy.bits .f32 = 32 ∨ (Rect.block (s := S100000x192) S5000x192.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S64x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v100) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v101) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64x64, .f32⟩
  | 4 => ⟨S64x64, .f32⟩
  | 5 => ⟨S64, .f32⟩
  | 6 => ⟨S64x64, .f32⟩
  | 7 => ⟨S64x64, .f32⟩
  | 8 => ⟨S64x64, .f32⟩
  | 9 => ⟨S64, .f32⟩
  | 10 => ⟨S1x1250000, .i32⟩
  | 11 => ⟨S1250000, .i32⟩
  | 12 => ⟨S1x1250000, .i32⟩
  | 13 => ⟨S1250000, .i32⟩
  | 14 => ⟨S100000x64, .f32⟩
  | 15 => ⟨S_, .i32⟩
  | 16 => ⟨S1250000, .i32⟩
  | 17 => ⟨S1250000, .i1⟩
  | 18 => ⟨S_, .i32⟩
  | 19 => ⟨S1250000, .i32⟩
  | 20 => ⟨S1250000, .i32⟩
  | 21 => ⟨S1250000, .i32⟩
  | 22 => ⟨S1250000x1, .i32⟩
  | 23 => ⟨S1250000x64, .f32⟩
  | 24 => ⟨S_, .f32⟩
  | 25 => ⟨S100000x64, .f32⟩
  | 26 => ⟨S1250000x1, .i32⟩
  | 27 => ⟨S100000x64, .f32⟩
  | 28 => ⟨S_, .f32⟩
  | 29 => ⟨S1250000, .f32⟩
  | 30 => ⟨S_, .f32⟩
  | 31 => ⟨S100000, .f32⟩
  | 32 => ⟨S1250000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S100000x64, .f32⟩
  | 41 => ⟨S_, .i32⟩
  | 42 => ⟨S1250000, .i32⟩
  | 43 => ⟨S1250000, .i1⟩
  | 44 => ⟨S_, .i32⟩
  | 45 => ⟨S1250000, .i32⟩
  | 46 => ⟨S1250000, .i32⟩
  | 47 => ⟨S1250000, .i32⟩
  | 48 => ⟨S1250000x1, .i32⟩
  | 49 => ⟨S1250000x64, .f32⟩
  | 50 => ⟨S_, .f32⟩
  | 51 => ⟨S100000x64, .f32⟩
  | 52 => ⟨S1250000x1, .i32⟩
  | 53 => ⟨S100000x64, .f32⟩
  | 54 => ⟨S_, .f32⟩
  | 55 => ⟨S1250000, .f32⟩
  | 56 => ⟨S_, .f32⟩
  | 57 => ⟨S100000, .f32⟩
  | 58 => ⟨S1250000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S1x1250000, .i32⟩
  | 76 => ⟨S1250000, .i32⟩
  | 77 => ⟨S1x1250000, .i32⟩
  | 78 => ⟨S1250000, .i32⟩
  | 79 => ⟨S100000x64, .f32⟩
  | 80 => ⟨S_, .i32⟩
  | 81 => ⟨S1250000, .i32⟩
  | 82 => ⟨S1250000, .i1⟩
  | 83 => ⟨S_, .i32⟩
  | 84 => ⟨S1250000, .i32⟩
  | 85 => ⟨S1250000, .i32⟩
  | 86 => ⟨S1250000, .i32⟩
  | 87 => ⟨S1250000x1, .i32⟩
  | 88 => ⟨S1250000x64, .f32⟩
  | 89 => ⟨S_, .f32⟩
  | 90 => ⟨S100000x64, .f32⟩
  | 91 => ⟨S1250000x1, .i32⟩
  | 92 => ⟨S100000x64, .f32⟩
  | 93 => ⟨S_, .f32⟩
  | 94 => ⟨S1250000, .f32⟩
  | 95 => ⟨S_, .f32⟩
  | 96 => ⟨S100000, .f32⟩
  | 97 => ⟨S1250000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x64, .f32⟩
  | 104 => ⟨S100000x64, .f32⟩
  | 105 => ⟨S100000x64, .f32⟩
  | 106 => ⟨S_, .i32⟩
  | 107 => ⟨S1250000, .i32⟩
  | 108 => ⟨S1250000, .i1⟩
  | 109 => ⟨S_, .i32⟩
  | 110 => ⟨S1250000, .i32⟩
  | 111 => ⟨S1250000, .i32⟩
  | 112 => ⟨S1250000, .i32⟩
  | 113 => ⟨S1250000x1, .i32⟩
  | 114 => ⟨S1250000x64, .f32⟩
  | 115 => ⟨S_, .f32⟩
  | 116 => ⟨S100000x64, .f32⟩
  | 117 => ⟨S1250000x1, .i32⟩
  | 118 => ⟨S100000x64, .f32⟩
  | 119 => ⟨S_, .f32⟩
  | 120 => ⟨S1250000, .f32⟩
  | 121 => ⟨S_, .f32⟩
  | 122 => ⟨S100000, .f32⟩
  | 123 => ⟨S1250000x1, .i32⟩
  | 124 => ⟨S100000, .f32⟩
  | 125 => ⟨S_, .f32⟩
  | 126 => ⟨S100000, .f32⟩
  | 127 => ⟨S100000, .f32⟩
  | _ => ⟨S100000x64, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S100000x64, .f32⟩
  | 9 => ⟨S_, .f32⟩
  | 10 => ⟨S100000x64, .f32⟩
  | 11 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call0_cst : Ref sig .tc := ⟨.hbm, 72, rfl⟩
abbrev main_call0_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_16 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_cst_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call1_cst : Ref sig .tc := ⟨.hbm, 137, rfl⟩
abbrev main_call1_v0 : Ref sig .tc := ⟨.hbm, 138, rfl⟩
abbrev main_v101 : Ref sig .tc := ⟨.hbm, 139, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf

class Facts : Prop extends Facts₀ where

variable [Facts]
-- ==== Proof.WordBody0.lean ====
/-
  Region 0: one block of 5000 rows of a dense layer. The body reads a 5000 × 64 block of the left matrix, the whole
  64 × 192 right matrix and a 1 × 192 row, and stores into its 5000 × 192 output block the product of the block by the
  matrix plus the row repeated down the 5000 rows.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.Kernel.Launch
import proofs.«130618_j3401614098589_1_alg».proof.Proof.Gen.Kernel.Skeleton
import proofs.«130618_j3401614098589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at the point, whether the block was fetched at
    this point or at an earlier one (then the block index has not moved since), for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at the point, whether the block was fetched at
    this point or at an earlier one (then the block index has not moved since), for any proof data whose array is the
    entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at the point, whether the block was fetched at
    this point or at an earlier one (then the block index has not moved since), for any proof data whose array is the
    entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole buffer -/

abbrev r0_0 : Rect S5000x64 := Rect.unit (s := S5000x64) ![0, 0] S5000x64.size inb_S5000x64_S5000x64_0_0
abbrev r0_1 : Rect S64x192 := Rect.unit (s := S64x192) ![0, 0] S64x192.size inb_S64x192_S64x192_0_0
abbrev r0_2 : Rect S1x192 := Rect.unit (s := S1x192) ![0, 0] S1x192.size inb_S1x192_S1x192_0_0
abbrev r0_3 : Rect S5000x192 := Rect.unit (s := S5000x192) ![0, 0] S5000x192.size inb_S5000x192_S5000x192_0_0

/-! ## What the body leaves in the output buffer -/

/-- The output buffer after the body, as a function of the three input blocks: the one store's value over the whole buffer. -/
def out0_3 (x0 : Vec F S5000x64 .f32) (x1 : Vec F S64x192 .f32) (x2 : Vec F S1x192 .f32) : Vec F S5000x192 .f32 :=
  View.canon [⟨r0_3, k0_pay1 (View.ld x0 r0_0) (View.ld x1 r0_1) (View.ld x2 r0_2)⟩]

/-- The one store covers the buffer. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

/-! ## The body's triple -/

set_option maxHeartbeats 1000000 in
/-- The body on whole staging buffers, the three inputs' holding `x0`, `x1`, `x2` and the output's anything, runs to the end
    with the inputs' as they were and the output's at `out0_3 x0 x1 x2`. -/
theorem sound_kernel0 (c : Dev nD) (E : Set ℕ) (i : grid0.Coords) (arg1 : Memref sig .tc .vmem S5000x64 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x64 .f32) (x1 : Vec F S64x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the three blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.WordBody1.lean ====
/-
  Region 1: one block of 5000 rows of the layer's last step. The body reads the same 5000 × 64 block of three arrays and
  stores into its output block, entry by entry, the larger of zero and the sum of the three entries.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.Kernel.Launch
import proofs.«130618_j3401614098589_1_alg».proof.Proof.Gen.Kernel.Skeleton
import proofs.«130618_j3401614098589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at the point, whether the block was fetched at
    this point or at an earlier one (then the block index has not moved since), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at the point, whether the block was fetched at
    this point or at an earlier one (then the block index has not moved since), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at the point, whether the block was fetched at
    this point or at an earlier one (then the block index has not moved since), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take a whole buffer -/

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S5000x64 := Rect.unit (s := S5000x64) ![0, 0] S5000x64.size inb_S5000x64_S5000x64_0_0
abbrev r1_3 : Rect S5000x64 := Rect.unit (s := S5000x64) ![0, 0] S5000x64.size inb_S5000x64_S5000x64_0_0

/-! ## What the body leaves in the output buffer -/

/-- The output buffer after the body, as a function of the three input blocks: the one store's value over the whole buffer. -/
def out1_3 (x0 : Vec F S5000x64 .f32) (x1 : Vec F S5000x64 .f32) (x2 : Vec F S5000x64 .f32) : Vec F S5000x64 .f32 :=
  View.canon [⟨r1_3, k1_pay1 (View.ld x0 r1_0) (View.ld x1 r1_1) (View.ld x2 r1_2)⟩]

/-- The one store covers the buffer. -/
theorem cover1_3 (p0 : Vec F S5000x64 .f32) (y : S5000x64.Idx) :
    ∃ pc ∈ ([⟨r1_3, p0⟩] : List (View.Piece (Elt F) S5000x64 .f32)), y ∈ pc.1.set :=
  View.cover_of_tiled [⟨r1_3, p0⟩] S5000x64.size (by rfl) y

/-! ## The body's triple -/

set_option maxHeartbeats 1000000 in
/-- The body on whole staging buffers, the three inputs' holding `x0`, `x1`, `x2` and the output's anything, runs to the end
    with the inputs' as they were and the output's at `out1_3 x0 x1 x2`. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the three blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.WordBody2.lean ====
/-
  Region 2: one block of 5000 rows of a dense layer. The body reads a 5000 × 64 block of the left matrix, the whole
  64 × 192 right matrix and a 1 × 192 row, and stores into its 5000 × 192 output block the product of the block by the
  matrix plus the row repeated down the 5000 rows.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.Kernel.Launch
import proofs.«130618_j3401614098589_1_alg».proof.Proof.Gen.Kernel.Skeleton
import proofs.«130618_j3401614098589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at the point, whether the block was fetched at
    this point or at an earlier one (then the block index has not moved since), for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at the point, whether the block was fetched at
    this point or at an earlier one (then the block index has not moved since), for any proof data whose array is the
    entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at the point, whether the block was fetched at
    this point or at an earlier one (then the block index has not moved since), for any proof data whose array is the
    entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take a whole buffer -/

abbrev r2_0 : Rect S5000x64 := Rect.unit (s := S5000x64) ![0, 0] S5000x64.size inb_S5000x64_S5000x64_0_0
abbrev r2_1 : Rect S64x192 := Rect.unit (s := S64x192) ![0, 0] S64x192.size inb_S64x192_S64x192_0_0
abbrev r2_2 : Rect S1x192 := Rect.unit (s := S1x192) ![0, 0] S1x192.size inb_S1x192_S1x192_0_0
abbrev r2_3 : Rect S5000x192 := Rect.unit (s := S5000x192) ![0, 0] S5000x192.size inb_S5000x192_S5000x192_0_0

/-! ## What the body leaves in the output buffer -/

/-- The output buffer after the body, as a function of the three input blocks: the one store's value over the whole buffer. -/
def out2_3 (x0 : Vec F S5000x64 .f32) (x1 : Vec F S64x192 .f32) (x2 : Vec F S1x192 .f32) : Vec F S5000x192 .f32 :=
  View.canon [⟨r2_3, k2_pay1 (View.ld x0 r2_0) (View.ld x1 r2_1) (View.ld x2 r2_2)⟩]

/-- The one store covers the buffer. -/
theorem cover2_3 (p0 : Vec F S5000x192 .f32) (y : S5000x192.Idx) :
    ∃ pc ∈ ([⟨r2_3, p0⟩] : List (View.Piece (Elt F) S5000x192 .f32)), y ∈ pc.1.set :=
  View.cover_of_tiled [⟨r2_3, p0⟩] S5000x192.size (by rfl) y

/-! ## The body's triple -/

set_option maxHeartbeats 1000000 in
/-- The body on whole staging buffers, the three inputs' holding `x0`, `x1`, `x2` and the output's anything, runs to the end
    with the inputs' as they were and the output's at `out2_3 x0 x1 x2`. -/
theorem sound_kernel2 (c : Dev nD) (E : Set ℕ) (i : grid2.Coords) (arg1 : Memref sig .tc .vmem S5000x64 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x64 .f32) (x1 : Vec F S64x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer at its block and the output's at `out2_3` of the three blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a grid point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.WordBody3.lean ====
/-
  Region 3: one block of 5000 rows of the layer's last step. The body reads the same 5000 × 64 block of three arrays and
  stores into its output block, entry by entry, the larger of zero and the sum of the three entries.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.Kernel.Launch
import proofs.«130618_j3401614098589_1_alg».proof.Proof.Gen.Kernel.Skeleton
import proofs.«130618_j3401614098589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at the point, whether the block was fetched at
    this point or at an earlier one (then the block index has not moved since), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at the point, whether the block was fetched at
    this point or at an earlier one (then the block index has not moved since), for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at the point, whether the block was fetched at
    this point or at an earlier one (then the block index has not moved since), for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store take a whole buffer -/

abbrev r3_0 : Rect S5000x64 := Rect.unit (s := S5000x64) ![0, 0] S5000x64.size inb_S5000x64_S5000x64_0_0
abbrev r3_1 : Rect S5000x64 := Rect.unit (s := S5000x64) ![0, 0] S5000x64.size inb_S5000x64_S5000x64_0_0
abbrev r3_2 : Rect S5000x64 := Rect.unit (s := S5000x64) ![0, 0] S5000x64.size inb_S5000x64_S5000x64_0_0
abbrev r3_3 : Rect S5000x64 := Rect.unit (s := S5000x64) ![0, 0] S5000x64.size inb_S5000x64_S5000x64_0_0

/-! ## What the body leaves in the output buffer -/

/-- The output buffer after the body, as a function of the three input blocks: the one store's value over the whole buffer. -/
def out3_3 (x0 : Vec F S5000x64 .f32) (x1 : Vec F S5000x64 .f32) (x2 : Vec F S5000x64 .f32) : Vec F S5000x64 .f32 :=
  View.canon [⟨r3_3, k3_pay1 (View.ld x0 r3_0) (View.ld x1 r3_1) (View.ld x2 r3_2)⟩]

/-- The one store covers the buffer. -/
theorem cover3_3 (p0 : Vec F S5000x64 .f32) (y : S5000x64.Idx) :
    ∃ pc ∈ ([⟨r3_3, p0⟩] : List (View.Piece (Elt F) S5000x64 .f32)), y ∈ pc.1.set :=
  View.cover_of_tiled [⟨r3_3, p0⟩] S5000x64.size (by rfl) y

/-! ## The body's triple -/

set_option maxHeartbeats 1000000 in
/-- The body on whole staging buffers, the three inputs' holding `x0`, `x1`, `x2` and the output's anything, runs to the end
    with the inputs' as they were and the output's at `out3_3 x0 x1 x2`. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer at its block and the output's at `out3_3` of the three blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a grid point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Run

end
-- ==== Proof.WordRun.lean ====
/-
  The whole program as a run of eight segments: four stretches of host operations, each followed by one pipelined
  region. The buffers' contents at each of the nine boundaries are a fold from the launch memory: a stretch of host
  operations applies its operations in order; a region replaces its output array by what its twenty write-backs leave and
  keeps every other buffer. Every weakly fair execution terminates, without a fault, and ends with every unscoped buffer at the
  last boundary's contents; no host operation and no region writes an argument array, so each is read back through the
  fold to its launch contents.
-/
import proofs.«130618_j3401614098589_1_alg».proof.Proof.WordBody0
import proofs.«130618_j3401614098589_1_alg».proof.Proof.WordBody1
import proofs.«130618_j3401614098589_1_alg».proof.Proof.WordBody2
import proofs.«130618_j3401614098589_1_alg».proof.Proof.WordBody3
import proofs.«130618_j3401614098589_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- The buffers after the first stretch of host operations (region 0's entry). -/
abbrev W1 : Dev nD → Valuation τ sig (Elt F) := fun c => StableHlo.after hostOps0 (W0 m ρ c)
abbrev Vt1 : (c : Dev nD) → (b : Ref sig .tc) → Buf (Elt F) ((c : Thread nD τ).loc b) := fun c b => W1 m ρ c b

/-- The buffers when region 0 is left: its four arrays at what the pipeline's write-backs leave, every other buffer as entered. -/
def W2 (c : Dev nD) : Valuation τ sig (Elt F) :=
  Pipeline.withArrays spec0 c (W1 m ρ c) fun w => (dat0 (Vt1 m ρ) c).arrAt w cfg0.N
theorem W2_arr (c : Dev nD) (w : Fin cfg0.W) :
    W2 m ρ c (Proc.devRef .tc (Pipeline.arrRef spec0 w)) = (dat0 (Vt1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vt2 : (c : Dev nD) → (b : Ref sig .tc) → Buf (Elt F) ((c : Thread nD τ).loc b) := fun c b => W2 m ρ c b
theorem hF0 (c : Dev nD) (w : Fin cfg0.W) : (dat0 (Vt1 m ρ) c).arrAt w cfg0.N = Vt2 m ρ c (Pipeline.arrRef spec0 w) :=
  (W2_arr m ρ c w).symm
theorem hrest0 (c : Dev nD) : ∀ b, b ∉ Finset.univ.image (Pipeline.arrRef spec0) → Vt2 m ρ c b = Vt1 m ρ c b :=
  fun b hb => W2_of_ne m ρ c b fun w e => hb (Finset.mem_image.mpr ⟨w, Finset.mem_univ _, e⟩)

/-- The buffers after the second stretch of host operations (region 1's entry). -/
abbrev W3 : Dev nD → Valuation τ sig (Elt F) := fun c => StableHlo.after hostOps1 (W2 m ρ c)
abbrev Vt3 : (c : Dev nD) → (b : Ref sig .tc) → Buf (Elt F) ((c : Thread nD τ).loc b) := fun c b => W3 m ρ c b

/-- The buffers when region 1 is left: its four arrays at what the pipeline's write-backs leave, every other buffer as entered. -/
def W4 (c : Dev nD) : Valuation τ sig (Elt F) :=
  Pipeline.withArrays spec1 c (W3 m ρ c) fun w => (dat1 (Vt3 m ρ) c).arrAt w cfg1.N
theorem W4_arr (c : Dev nD) (w : Fin cfg1.W) :
    W4 m ρ c (Proc.devRef .tc (Pipeline.arrRef spec1 w)) = (dat1 (Vt3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev Vt4 : (c : Dev nD) → (b : Ref sig .tc) → Buf (Elt F) ((c : Thread nD τ).loc b) := fun c b => W4 m ρ c b
theorem hF1 (c : Dev nD) (w : Fin cfg1.W) : (dat1 (Vt3 m ρ) c).arrAt w cfg1.N = Vt4 m ρ c (Pipeline.arrRef spec1 w) :=
  (W4_arr m ρ c w).symm
theorem hrest1 (c : Dev nD) : ∀ b, b ∉ Finset.univ.image (Pipeline.arrRef spec1) → Vt4 m ρ c b = Vt3 m ρ c b :=
  fun b hb => W4_of_ne m ρ c b fun w e => hb (Finset.mem_image.mpr ⟨w, Finset.mem_univ _, e⟩)

/-- The buffers after the third stretch of host operations (region 2's entry). -/
abbrev W5 : Dev nD → Valuation τ sig (Elt F) := fun c => StableHlo.after hostOps2 (W4 m ρ c)
abbrev Vt5 : (c : Dev nD) → (b : Ref sig .tc) → Buf (Elt F) ((c : Thread nD τ).loc b) := fun c b => W5 m ρ c b

/-- The buffers when region 2 is left: its four arrays at what the pipeline's write-backs leave, every other buffer as entered. -/
def W6 (c : Dev nD) : Valuation τ sig (Elt F) :=
  Pipeline.withArrays spec2 c (W5 m ρ c) fun w => (dat2 (Vt5 m ρ) c).arrAt w cfg2.N
theorem W6_arr (c : Dev nD) (w : Fin cfg2.W) :
    W6 m ρ c (Proc.devRef .tc (Pipeline.arrRef spec2 w)) = (dat2 (Vt5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev Vt6 : (c : Dev nD) → (b : Ref sig .tc) → Buf (Elt F) ((c : Thread nD τ).loc b) := fun c b => W6 m ρ c b
theorem hF2 (c : Dev nD) (w : Fin cfg2.W) : (dat2 (Vt5 m ρ) c).arrAt w cfg2.N = Vt6 m ρ c (Pipeline.arrRef spec2 w) :=
  (W6_arr m ρ c w).symm
theorem hrest2 (c : Dev nD) : ∀ b, b ∉ Finset.univ.image (Pipeline.arrRef spec2) → Vt6 m ρ c b = Vt5 m ρ c b :=
  fun b hb => W6_of_ne m ρ c b fun w e => hb (Finset.mem_image.mpr ⟨w, Finset.mem_univ _, e⟩)

/-- The buffers after the fourth stretch of host operations (region 3's entry). -/
abbrev W7 : Dev nD → Valuation τ sig (Elt F) := fun c => StableHlo.after hostOps3 (W6 m ρ c)
abbrev Vt7 : (c : Dev nD) → (b : Ref sig .tc) → Buf (Elt F) ((c : Thread nD τ).loc b) := fun c b => W7 m ρ c b

/-- The buffers when region 3 is left: its four arrays at what the pipeline's write-backs leave, every other buffer as entered. -/
def W8 (c : Dev nD) : Valuation τ sig (Elt F) :=
  Pipeline.withArrays spec3 c (W7 m ρ c) fun w => (dat3 (Vt7 m ρ) c).arrAt w cfg3.N
theorem W8_arr (c : Dev nD) (w : Fin cfg3.W) :
    W8 m ρ c (Proc.devRef .tc (Pipeline.arrRef spec3 w)) = (dat3 (Vt7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev Vt8 : (c : Dev nD) → (b : Ref sig .tc) → Buf (Elt F) ((c : Thread nD τ).loc b) := fun c b => W8 m ρ c b
theorem hF3 (c : Dev nD) (w : Fin cfg3.W) : (dat3 (Vt7 m ρ) c).arrAt w cfg3.N = Vt8 m ρ c (Pipeline.arrRef spec3 w) :=
  (W8_arr m ρ c w).symm
theorem hrest3 (c : Dev nD) : ∀ b, b ∉ Finset.univ.image (Pipeline.arrRef spec3) → Vt8 m ρ c b = Vt7 m ρ c b :=
  fun b hb => W8_of_ne m ρ c b fun w e => hb (Finset.mem_image.mpr ⟨w, Finset.mem_univ _, e⟩)

/-! ## The arguments end as launched -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vt1 m ρ) c).arrAt_in 0 rfl _).trans (A_eq0 (Vt1 m ρ) c 0))
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c
  | ⟨3, _⟩ => fun c => dat3 (Vt7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its dues, at nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment: entered with every unscoped buffer at `W1`, left with them at `W2`. Its four arrays are
    split out of the unscoped buffers at entry and put back at the exit contents; the generator register passes through the
    pipeline's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its four arrays are
    split out of the unscoped buffers at entry and put back at the exit contents; the generator register passes through the
    pipeline's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its four arrays are
    split out of the unscoped buffers at entry and put back at the exit contents; the generator register passes through the
    pipeline's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vt6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`. Its four arrays are
    split out of the unscoped buffers at entry and put back at the exit contents; the generator register passes through the
    pipeline's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vt7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt7 m ρ c) (Vt8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- THE RUN: from any memory with zero counters, every weakly fair execution of the program on the TensorCores terminates,
    nothing faulting, and in every final state each core's unscoped buffers hold the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩) (run_main m ρ)

end Cert.Kernel.Run

end
-- ==== Proof.IdealBody0.lean ====
/-
  Region 0: one block of 5000 rows of a dense layer. The body reads a 5000 × 64 block of the left matrix, the whole
  64 × 192 right matrix and a 1 × 192 row, and stores into its 5000 × 192 output block the product of the block by the
  matrix plus the row repeated down the 5000 rows.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.KernelIdeal.Launch
import proofs.«130618_j3401614098589_1_alg».proof.Proof.Gen.KernelIdeal.Skeleton
import proofs.«130618_j3401614098589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at the point, whether the block was fetched at
    this point or at an earlier one (then the block index has not moved since), for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at the point, whether the block was fetched at
    this point or at an earlier one (then the block index has not moved since), for any proof data whose array is the
    entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at the point, whether the block was fetched at
    this point or at an earlier one (then the block index has not moved since), for any proof data whose array is the
    entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole buffer -/

abbrev r0_0 : Rect S5000x64 := Rect.unit (s := S5000x64) ![0, 0] S5000x64.size inb_S5000x64_S5000x64_0_0
abbrev r0_1 : Rect S64x192 := Rect.unit (s := S64x192) ![0, 0] S64x192.size inb_S64x192_S64x192_0_0
abbrev r0_2 : Rect S1x192 := Rect.unit (s := S1x192) ![0, 0] S1x192.size inb_S1x192_S1x192_0_0
abbrev r0_3 : Rect S5000x192 := Rect.unit (s := S5000x192) ![0, 0] S5000x192.size inb_S5000x192_S5000x192_0_0

/-! ## What the body leaves in the output buffer -/

/-- The output buffer after the body, as a function of the three input blocks: the one store's value over the whole buffer. -/
def out0_3 (x0 : Vec F S5000x64 .f32) (x1 : Vec F S64x192 .f32) (x2 : Vec F S1x192 .f32) : Vec F S5000x192 .f32 :=
  View.canon [⟨r0_3, k0_pay1 (View.ld x0 r0_0) (View.ld x1 r0_1) (View.ld x2 r0_2)⟩]

/-- The one store covers the buffer. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

/-! ## The body's triple -/

set_option maxHeartbeats 1000000 in
/-- The body on whole staging buffers, the three inputs' holding `x0`, `x1`, `x2` and the output's anything, runs to the end
    with the inputs' as they were and the output's at `out0_3 x0 x1 x2`. -/
theorem sound_kernel0 (c : Dev nD) (E : Set ℕ) (i : grid0.Coords) (arg1 : Memref sig .tc .vmem S5000x64 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x64 .f32) (x1 : Vec F S64x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the three blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.IdealBody1.lean ====
/-
  Region 1: one block of 5000 rows of the layer's last step. The body reads the same 5000 × 64 block of three arrays and
  stores into its output block, entry by entry, the larger of zero and the sum of the three entries.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.KernelIdeal.Launch
import proofs.«130618_j3401614098589_1_alg».proof.Proof.Gen.KernelIdeal.Skeleton
import proofs.«130618_j3401614098589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at the point, whether the block was fetched at
    this point or at an earlier one (then the block index has not moved since), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at the point, whether the block was fetched at
    this point or at an earlier one (then the block index has not moved since), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at the point, whether the block was fetched at
    this point or at an earlier one (then the block index has not moved since), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take a whole buffer -/

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S5000x64 := Rect.unit (s := S5000x64) ![0, 0] S5000x64.size inb_S5000x64_S5000x64_0_0
abbrev r1_3 : Rect S5000x64 := Rect.unit (s := S5000x64) ![0, 0] S5000x64.size inb_S5000x64_S5000x64_0_0

/-! ## What the body leaves in the output buffer -/

/-- The output buffer after the body, as a function of the three input blocks: the one store's value over the whole buffer. -/
def out1_3 (x0 : Vec F S5000x64 .f32) (x1 : Vec F S5000x64 .f32) (x2 : Vec F S5000x64 .f32) : Vec F S5000x64 .f32 :=
  View.canon [⟨r1_3, k1_pay1 (View.ld x0 r1_0) (View.ld x1 r1_1) (View.ld x2 r1_2)⟩]

/-- The one store covers the buffer. -/
theorem cover1_3 (p0 : Vec F S5000x64 .f32) (y : S5000x64.Idx) :
    ∃ pc ∈ ([⟨r1_3, p0⟩] : List (View.Piece (Elt F) S5000x64 .f32)), y ∈ pc.1.set :=
  View.cover_of_tiled [⟨r1_3, p0⟩] S5000x64.size (by rfl) y

/-! ## The body's triple -/

set_option maxHeartbeats 1000000 in
/-- The body on whole staging buffers, the three inputs' holding `x0`, `x1`, `x2` and the output's anything, runs to the end
    with the inputs' as they were and the output's at `out1_3 x0 x1 x2`. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the three blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.IdealBody2.lean ====
/-
  Region 2: one block of 5000 rows of a dense layer. The body reads a 5000 × 64 block of the left matrix, the whole
  64 × 192 right matrix and a 1 × 192 row, and stores into its 5000 × 192 output block the product of the block by the
  matrix plus the row repeated down the 5000 rows.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.KernelIdeal.Launch
import proofs.«130618_j3401614098589_1_alg».proof.Proof.Gen.KernelIdeal.Skeleton
import proofs.«130618_j3401614098589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at the point, whether the block was fetched at
    this point or at an earlier one (then the block index has not moved since), for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at the point, whether the block was fetched at
    this point or at an earlier one (then the block index has not moved since), for any proof data whose array is the
    entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at the point, whether the block was fetched at
    this point or at an earlier one (then the block index has not moved since), for any proof data whose array is the
    entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take a whole buffer -/

abbrev r2_0 : Rect S5000x64 := Rect.unit (s := S5000x64) ![0, 0] S5000x64.size inb_S5000x64_S5000x64_0_0
abbrev r2_1 : Rect S64x192 := Rect.unit (s := S64x192) ![0, 0] S64x192.size inb_S64x192_S64x192_0_0
abbrev r2_2 : Rect S1x192 := Rect.unit (s := S1x192) ![0, 0] S1x192.size inb_S1x192_S1x192_0_0
abbrev r2_3 : Rect S5000x192 := Rect.unit (s := S5000x192) ![0, 0] S5000x192.size inb_S5000x192_S5000x192_0_0

/-! ## What the body leaves in the output buffer -/

/-- The output buffer after the body, as a function of the three input blocks: the one store's value over the whole buffer. -/
def out2_3 (x0 : Vec F S5000x64 .f32) (x1 : Vec F S64x192 .f32) (x2 : Vec F S1x192 .f32) : Vec F S5000x192 .f32 :=
  View.canon [⟨r2_3, k2_pay1 (View.ld x0 r2_0) (View.ld x1 r2_1) (View.ld x2 r2_2)⟩]

/-- The one store covers the buffer. -/
theorem cover2_3 (p0 : Vec F S5000x192 .f32) (y : S5000x192.Idx) :
    ∃ pc ∈ ([⟨r2_3, p0⟩] : List (View.Piece (Elt F) S5000x192 .f32)), y ∈ pc.1.set :=
  View.cover_of_tiled [⟨r2_3, p0⟩] S5000x192.size (by rfl) y

/-! ## The body's triple -/

set_option maxHeartbeats 1000000 in
/-- The body on whole staging buffers, the three inputs' holding `x0`, `x1`, `x2` and the output's anything, runs to the end
    with the inputs' as they were and the output's at `out2_3 x0 x1 x2`. -/
theorem sound_kernel2 (c : Dev nD) (E : Set ℕ) (i : grid2.Coords) (arg1 : Memref sig .tc .vmem S5000x64 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x64 .f32) (x1 : Vec F S64x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer at its block and the output's at `out2_3` of the three blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a grid point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.IdealBody3.lean ====
/-
  Region 3: one block of 5000 rows of the layer's last step. The body reads the same 5000 × 64 block of three arrays and
  stores into its output block, entry by entry, the larger of zero and the sum of the three entries.
  Stated at an arbitrary valuation V of the buffers at the region's entry: the block of each window at a grid point is
  read off V, the output buffer after the body is the body's one store laid over the whole buffer, and the body's
  Hoare triple, the pipeline's proof data and the per-point obligation follow.
-/
import proofs.«130618_j3401614098589_1_alg».proof.Proof.Gen.KernelIdeal.Launch
import proofs.«130618_j3401614098589_1_alg».proof.Proof.Gen.KernelIdeal.Skeleton
import proofs.«130618_j3401614098589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is checked by a structural recursion, one step per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at the point, whether the block was fetched at
    this point or at an earlier one (then the block index has not moved since), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at the point, whether the block was fetched at
    this point or at an earlier one (then the block index has not moved since), for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at the point, whether the block was fetched at
    this point or at an earlier one (then the block index has not moved since), for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store take a whole buffer -/

abbrev r3_0 : Rect S5000x64 := Rect.unit (s := S5000x64) ![0, 0] S5000x64.size inb_S5000x64_S5000x64_0_0
abbrev r3_1 : Rect S5000x64 := Rect.unit (s := S5000x64) ![0, 0] S5000x64.size inb_S5000x64_S5000x64_0_0
abbrev r3_2 : Rect S5000x64 := Rect.unit (s := S5000x64) ![0, 0] S5000x64.size inb_S5000x64_S5000x64_0_0
abbrev r3_3 : Rect S5000x64 := Rect.unit (s := S5000x64) ![0, 0] S5000x64.size inb_S5000x64_S5000x64_0_0

/-! ## What the body leaves in the output buffer -/

/-- The output buffer after the body, as a function of the three input blocks: the one store's value over the whole buffer. -/
def out3_3 (x0 : Vec F S5000x64 .f32) (x1 : Vec F S5000x64 .f32) (x2 : Vec F S5000x64 .f32) : Vec F S5000x64 .f32 :=
  View.canon [⟨r3_3, k3_pay1 (View.ld x0 r3_0) (View.ld x1 r3_1) (View.ld x2 r3_2)⟩]

/-- The one store covers the buffer. -/
theorem cover3_3 (p0 : Vec F S5000x64 .f32) (y : S5000x64.Idx) :
    ∃ pc ∈ ([⟨r3_3, p0⟩] : List (View.Piece (Elt F) S5000x64 .f32)), y ∈ pc.1.set :=
  View.cover_of_tiled [⟨r3_3, p0⟩] S5000x64.size (by rfl) y

/-! ## The body's triple -/

set_option maxHeartbeats 1000000 in
/-- The body on whole staging buffers, the three inputs' holding `x0`, `x1`, `x2` and the output's anything, runs to the end
    with the inputs' as they were and the output's at `out3_3 x0 x1 x2`. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer at its block and the output's at `out3_3` of the three blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a grid point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.IdealRun.lean ====
/-
  The whole program as a run of eight segments: four stretches of host operations, each followed by one pipelined
  region. The buffers' contents at each of the nine boundaries are a fold from the launch memory: a stretch of host
  operations applies its operations in order; a region replaces its output array by what its twenty write-backs leave and
  keeps every other buffer. Every weakly fair execution terminates, without a fault, and ends with every unscoped buffer at the
  last boundary's contents; no host operation and no region writes an argument array, so each is read back through the
  fold to its launch contents.
-/
import proofs.«130618_j3401614098589_1_alg».proof.Proof.IdealBody0
import proofs.«130618_j3401614098589_1_alg».proof.Proof.IdealBody1
import proofs.«130618_j3401614098589_1_alg».proof.Proof.IdealBody2
import proofs.«130618_j3401614098589_1_alg».proof.Proof.IdealBody3
import proofs.«130618_j3401614098589_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- The buffers after the first stretch of host operations (region 0's entry). -/
abbrev W1 : Dev nD → Valuation τ sig (Elt F) := fun c => StableHlo.after hostOps0 (W0 m ρ c)
abbrev Vt1 : (c : Dev nD) → (b : Ref sig .tc) → Buf (Elt F) ((c : Thread nD τ).loc b) := fun c b => W1 m ρ c b

/-- The buffers when region 0 is left: its four arrays at what the pipeline's write-backs leave, every other buffer as entered. -/
def W2 (c : Dev nD) : Valuation τ sig (Elt F) :=
  Pipeline.withArrays spec0 c (W1 m ρ c) fun w => (dat0 (Vt1 m ρ) c).arrAt w cfg0.N
theorem W2_arr (c : Dev nD) (w : Fin cfg0.W) :
    W2 m ρ c (Proc.devRef .tc (Pipeline.arrRef spec0 w)) = (dat0 (Vt1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vt2 : (c : Dev nD) → (b : Ref sig .tc) → Buf (Elt F) ((c : Thread nD τ).loc b) := fun c b => W2 m ρ c b
theorem hF0 (c : Dev nD) (w : Fin cfg0.W) : (dat0 (Vt1 m ρ) c).arrAt w cfg0.N = Vt2 m ρ c (Pipeline.arrRef spec0 w) :=
  (W2_arr m ρ c w).symm
theorem hrest0 (c : Dev nD) : ∀ b, b ∉ Finset.univ.image (Pipeline.arrRef spec0) → Vt2 m ρ c b = Vt1 m ρ c b :=
  fun b hb => W2_of_ne m ρ c b fun w e => hb (Finset.mem_image.mpr ⟨w, Finset.mem_univ _, e⟩)

/-- The buffers after the second stretch of host operations (region 1's entry). -/
abbrev W3 : Dev nD → Valuation τ sig (Elt F) := fun c => StableHlo.after hostOps1 (W2 m ρ c)
abbrev Vt3 : (c : Dev nD) → (b : Ref sig .tc) → Buf (Elt F) ((c : Thread nD τ).loc b) := fun c b => W3 m ρ c b

/-- The buffers when region 1 is left: its four arrays at what the pipeline's write-backs leave, every other buffer as entered. -/
def W4 (c : Dev nD) : Valuation τ sig (Elt F) :=
  Pipeline.withArrays spec1 c (W3 m ρ c) fun w => (dat1 (Vt3 m ρ) c).arrAt w cfg1.N
theorem W4_arr (c : Dev nD) (w : Fin cfg1.W) :
    W4 m ρ c (Proc.devRef .tc (Pipeline.arrRef spec1 w)) = (dat1 (Vt3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev Vt4 : (c : Dev nD) → (b : Ref sig .tc) → Buf (Elt F) ((c : Thread nD τ).loc b) := fun c b => W4 m ρ c b
theorem hF1 (c : Dev nD) (w : Fin cfg1.W) : (dat1 (Vt3 m ρ) c).arrAt w cfg1.N = Vt4 m ρ c (Pipeline.arrRef spec1 w) :=
  (W4_arr m ρ c w).symm
theorem hrest1 (c : Dev nD) : ∀ b, b ∉ Finset.univ.image (Pipeline.arrRef spec1) → Vt4 m ρ c b = Vt3 m ρ c b :=
  fun b hb => W4_of_ne m ρ c b fun w e => hb (Finset.mem_image.mpr ⟨w, Finset.mem_univ _, e⟩)

/-- The buffers after the third stretch of host operations (region 2's entry). -/
abbrev W5 : Dev nD → Valuation τ sig (Elt F) := fun c => StableHlo.after hostOps2 (W4 m ρ c)
abbrev Vt5 : (c : Dev nD) → (b : Ref sig .tc) → Buf (Elt F) ((c : Thread nD τ).loc b) := fun c b => W5 m ρ c b

/-- The buffers when region 2 is left: its four arrays at what the pipeline's write-backs leave, every other buffer as entered. -/
def W6 (c : Dev nD) : Valuation τ sig (Elt F) :=
  Pipeline.withArrays spec2 c (W5 m ρ c) fun w => (dat2 (Vt5 m ρ) c).arrAt w cfg2.N
theorem W6_arr (c : Dev nD) (w : Fin cfg2.W) :
    W6 m ρ c (Proc.devRef .tc (Pipeline.arrRef spec2 w)) = (dat2 (Vt5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev Vt6 : (c : Dev nD) → (b : Ref sig .tc) → Buf (Elt F) ((c : Thread nD τ).loc b) := fun c b => W6 m ρ c b
theorem hF2 (c : Dev nD) (w : Fin cfg2.W) : (dat2 (Vt5 m ρ) c).arrAt w cfg2.N = Vt6 m ρ c (Pipeline.arrRef spec2 w) :=
  (W6_arr m ρ c w).symm
theorem hrest2 (c : Dev nD) : ∀ b, b ∉ Finset.univ.image (Pipeline.arrRef spec2) → Vt6 m ρ c b = Vt5 m ρ c b :=
  fun b hb => W6_of_ne m ρ c b fun w e => hb (Finset.mem_image.mpr ⟨w, Finset.mem_univ _, e⟩)

/-- The buffers after the fourth stretch of host operations (region 3's entry). -/
abbrev W7 : Dev nD → Valuation τ sig (Elt F) := fun c => StableHlo.after hostOps3 (W6 m ρ c)
abbrev Vt7 : (c : Dev nD) → (b : Ref sig .tc) → Buf (Elt F) ((c : Thread nD τ).loc b) := fun c b => W7 m ρ c b

/-- The buffers when region 3 is left: its four arrays at what the pipeline's write-backs leave, every other buffer as entered. -/
def W8 (c : Dev nD) : Valuation τ sig (Elt F) :=
  Pipeline.withArrays spec3 c (W7 m ρ c) fun w => (dat3 (Vt7 m ρ) c).arrAt w cfg3.N
theorem W8_arr (c : Dev nD) (w : Fin cfg3.W) :
    W8 m ρ c (Proc.devRef .tc (Pipeline.arrRef spec3 w)) = (dat3 (Vt7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev Vt8 : (c : Dev nD) → (b : Ref sig .tc) → Buf (Elt F) ((c : Thread nD τ).loc b) := fun c b => W8 m ρ c b
theorem hF3 (c : Dev nD) (w : Fin cfg3.W) : (dat3 (Vt7 m ρ) c).arrAt w cfg3.N = Vt8 m ρ c (Pipeline.arrRef spec3 w) :=
  (W8_arr m ρ c w).symm
theorem hrest3 (c : Dev nD) : ∀ b, b ∉ Finset.univ.image (Pipeline.arrRef spec3) → Vt8 m ρ c b = Vt7 m ρ c b :=
  fun b hb => W8_of_ne m ρ c b fun w e => hb (Finset.mem_image.mpr ⟨w, Finset.mem_univ _, e⟩)

/-! ## The arguments end as launched -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vt1 m ρ) c).arrAt_in 0 rfl _).trans (A_eq0 (Vt1 m ρ) c 0))
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c
  | ⟨3, _⟩ => fun c => dat3 (Vt7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its dues, at nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment: entered with every unscoped buffer at `W1`, left with them at `W2`. Its four arrays are
    split out of the unscoped buffers at entry and put back at the exit contents; the generator register passes through the
    pipeline's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its four arrays are
    split out of the unscoped buffers at entry and put back at the exit contents; the generator register passes through the
    pipeline's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its four arrays are
    split out of the unscoped buffers at entry and put back at the exit contents; the generator register passes through the
    pipeline's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vt6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`. Its four arrays are
    split out of the unscoped buffers at entry and put back at the exit contents; the generator register passes through the
    pipeline's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vt7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt7 m ρ c) (Vt8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- THE RUN: from any memory with zero counters, every weakly fair execution of the program on the TensorCores terminates,
    nothing faulting, and in every final state each core's unscoped buffers hold the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩) (run_main m ρ)

end Cert.KernelIdeal.Run

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«130618_j3401614098589_1_alg».proof.Proof.LibPlainMatmul
import proofs.«130618_j3401614098589_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«130618_j3401614098589_1_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«130618_j3401614098589_1_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibBlockForms.lean ====
/-
  What one grid point stores, as a function of the blocks it loaded.

  * A block of the dense layer: both operands narrowed to a shorter float format (the identity on the extended reals),
    multiplied into an accumulator of zeros, plus the 1 × N row broadcast down the rows, is the biased product of the
    blocks — whether or not the blocks pass through shape casts to their own shapes first.
  * A block of the layer's last step: the positive part of the sum of three blocks, added left to right.
-/
import proofs.«130618_j3401614098589_1_alg».proof.Proof.LibBiasedBlock
import Idealize.ShloMosaic.PureOps.Ideal.Laws

noncomputable section

namespace Cert.Fused

open Idealize.ShloMosaic Idealize.ShloMosaic.ValueIdx Cert.MatrixProduct Cert.Gcn

/-- The positive part of the sum of three arrays, added left to right, entry by entry. -/
def positive3 {s : Shape} (a b c : s.Idx → EReal) : s.Idx → EReal :=
  fun i => max (a i + b i + c i) (Ideal.ofBits .f32 0x00000000#32)

/-- The dense block, the right operand and the row passing through casts to their own shapes. -/
theorem dense_block {R K N : ℕ}
    (w : DotDims.WF ⟨2, ![R, K]⟩ ⟨2, ![K, N]⟩ ⟨2, ![R, N]⟩ [1] [0] [0] [1] [] [])
    (hb : FTy.bits .bf16 < FTy.bits .f32)
    (h1 : (⟨2, ![K, N]⟩ : Shape).ShapeCasts ⟨2, ![K, N]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 x0 hb) (truncf .bf16 (shapeCast ⟨2, ![K, N]⟩ x1 h1) hb)
          (constant (F := Ideal) ⟨2, ![R, N]⟩ .f32 0x00000000#32))
        (broadcastTo ⟨2, ![R, N]⟩ (shapeCast ⟨2, ![1, N]⟩ (shapeCast ⟨2, ![1, N]⟩ x2 h2) h2) hbc)
      = biasedProduct x0 x1 x2 := by
  funext j
  obtain ⟨p, q, rfl⟩ : ∃ (p : Fin R) (q : Fin N), j = ix2 p q := ⟨j 0, j 1, eq_ix2 j⟩
  simp only [shapeCast_self]
  rw [addf_apply, matmul_zero_eq_mm, broadcastTo_1b_ab_apply]
  rfl

/-- The dense block, all three blocks passing through casts to their own shapes. -/
theorem dense_block_cast {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩)
    (h1 : (⟨2, ![K, N]⟩ : Shape).ShapeCasts ⟨2, ![K, N]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 (shapeCast ⟨2, ![K, N]⟩ x1 h1) hb)
          (constant (F := Ideal) ⟨2, ![R, N]⟩ .f32 0x00000000#32))
        (broadcastTo ⟨2, ![R, N]⟩ (shapeCast ⟨2, ![1, N]⟩ (shapeCast ⟨2, ![1, N]⟩ x2 h2) h2) hbc)
      = biasedProduct x0 x1 x2 := by
  funext j
  obtain ⟨p, q, rfl⟩ : ∃ (p : Fin R) (q : Fin N), j = ix2 p q := ⟨j 0, j 1, eq_ix2 j⟩
  simp only [shapeCast_self]
  rw [addf_apply, matmul_zero_eq_mm, broadcastTo_1b_ab_apply]
  rfl

/-- The last step's block: three blocks cast to their own shape, added left to right, the larger of the sum and a
    splat of the zero word. -/
theorem positive_block {s : Shape} (h : s.ShapeCasts s) (x0 x1 x2 : FVec Ideal s .f32) :
    maximumf (addf (addf (shapeCast s x0 h) (shapeCast s x1 h)) (shapeCast s x2 h))
        (broadcast s (Scalar.ofBits (F := Ideal) .f32 0x00000000#32))
      = positive3 x0 x1 x2 := by
  funext j
  simp only [shapeCast_self]
  rfl

/-- Entry `j` of a block's positive sum is entry `i` of the whole arrays' when the three blocks hold at `j` what the
    arrays hold at `i`. -/
theorem positive3_at {s t : Shape} (a b c : t.Idx → EReal) (x0 x1 x2 : s.Idx → EReal) (j : s.Idx) (i : t.Idx)
    (h0 : x0 j = a i) (h1 : x1 j = b i) (h2 : x2 j = c i) : positive3 x0 x1 x2 j = positive3 a b c i := by
  show max (x0 j + x1 j + x2 j) _ = max (a i + b i + c i) _
  rw [h0, h1, h2]

end Cert.Fused

end
-- ==== Proof.IdealArray0.lean ====
/-
  Region 0's output array after its twenty grid points: the biased product of the three arrays the region reads.
  Point t stores rows 5000·t … 5000·t + 4999; a row of the product depends on the same row of the left matrix only, so the
  block a point stores is that block of the whole product, and the twenty blocks tile the array.
-/
import proofs.«130618_j3401614098589_1_alg».proof.Proof.IdealBody0
import proofs.«130618_j3401614098589_1_alg».proof.Proof.LibBlockForms
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)
open Cert.Fused Cert.Gcn Cert.MatrixProduct

variable (V : (c : Dev nD) → (b : Ref sig .tc) → Buf (Elt Ideal) ((c : Thread nD τ).loc b))

theorem hz0 : (![0, 0] : Fin 2 → Nat) = fun _ => 0 := funext fun a => by fin_cases a <;> rfl

/-- The value the body stores is the biased product of the three blocks it loaded. -/
theorem pay0_eq (x0 : Vec Ideal S5000x64 .f32) (x1 : Vec Ideal S64x192 .f32) (x2 : Vec Ideal S1x192 .f32) :
    k0_pay1 (F := Ideal) x0 x1 x2 = biasedProduct x0 x1 x2 :=
  dense_block dot_S5000x64_S64x192_S5000x192_1_0_0_1_n_n_wf bitsLt_bf16_f32 shapeCasts_S64x192_S64x192 shapeCasts_S1x192_S1x192 broadcasts_S1x192_S5000x192 x0 x1 x2

/-- The windows' block indices over the grid: the row-block windows move with the point, the other two stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the region leaves: the biased product of the arrays it reads, as it finds them. -/
def product0 (c : Dev nD) : S100000x192.Idx → EReal :=
  biasedProduct (V c main_arg0 : S100000x64.Idx → EReal) (V c main_v4 : S64x192.Idx → EReal) (V c main_v7 : S1x192.Idx → EReal)

/-- What point `t` writes back is block `t` of the product. -/
theorem flushed0_eq (c : Dev nD) (t : Fin cfg0.N) :
    (dat0 V c).flushed 3 t = ((cfg0.win 3).blk t).view.read (Elt Ideal) (product0 V c) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S64x192) hz0, View.ld_unit_zero (S := S1x192) hz0]
  rw [pay0_eq]
  obtain ⟨e0, e1, e2, e3, e4, e5, e6, e7⟩ := idx0 t
  have hN : cfg0.N = 20 := N_0
  funext j
  obtain ⟨p, q, rfl⟩ : ∃ (p : Fin 5000) (q : Fin 192), j = ix2 p q := ⟨j 0, j 1, eq_ix2 j⟩
  have hr : t.val * 5000 + p.val < 100000 := by have := t.isLt; have := p.isLt; omega
  show biasedProduct (iblk0 V c 0 t) (iblk0 V c 1 t) (iblk0 V c 2 t) (ix2 p q)
    = product0 V c (((cfg0.win 3).blk t).view.emb (ix2 p q))
  have hemb : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 192 + 1 * q.val = q.val; omega
  rw [hemb]
  refine biasedProduct_row _ _ _ _ _ _ p q ⟨_, hr⟩ (fun k => ?_) (fun k => ?_) ?_
  · show (V c main_arg0 : S100000x64.Idx → EReal) (((cfg0.win 0).blk t).view.emb (ix2 p k)) = (V c main_arg0 : S100000x64.Idx → EReal) (ix2 ⟨_, hr⟩ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show (V c main_v4 : S64x192.Idx → EReal) (((cfg0.win 1).blk t).view.emb (ix2 k q)) = (V c main_v4 : S64x192.Idx → EReal) (ix2 k q)
    refine congrArg _ (funext fun a => Fin.ext ?_)
    match a with
    | ⟨0, _⟩ => show win0_1.index t (0 : Fin 2) * 64 + 1 * k.val = k.val; omega
    | ⟨1, _⟩ => show win0_1.index t (1 : Fin 2) * 192 + 1 * q.val = q.val; omega
  · show (V c main_v7 : S1x192.Idx → EReal) (((cfg0.win 2).blk t).view.emb (ix2 (0 : Fin 1) q)) = (V c main_v7 : S1x192.Idx → EReal) (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 192 + 1 * q.val = q.val; omega

/-- An index of the array is in point `t`'s block iff each coordinate is in the block's range on its axis. -/
theorem mem_blk0 (t : Fin cfg0.N) (i : S100000x192.Idx) :
    i ∈ ((cfg0.win 3).blk t).view.set ↔ ∀ a : Fin 2, win0_3.index t a * S5000x192.size a ≤ (i a).val ∧ (i a).val < win0_3.index t a * S5000x192.size a + S5000x192.size a := by
  show i ∈ ((View.whole main_v8).slice (win0_3.rect t)).set ↔ _
  rw [View.set_slice_whole, Rect.mem_set_unit]
  exact Iff.rfl

/-- THE ARRAY after the region: the product. -/
theorem array0 (c : Dev nD) : (dat0 V c).arrAt 3 cfg0.N = product0 V c :=
  (dat0 V c).arrAt_eq_of_cover 3 (product0 V c) (fun t _ => flushed0_eq V c t) fun i => by
    have hi0 : (i 0).val < 100000 := (i 0).isLt
    have hi1 : (i 1).val < 192 := (i 1).isLt
    have hN : cfg0.N = 20 := N_0
    refine ⟨⟨(i 0).val / 5000, by omega⟩, flush0_3 _, ?_⟩
    rw [mem_blk0]
    obtain ⟨e0, e1, e2, e3, e4, e5, e6, e7⟩ := idx0 ⟨(i 0).val / 5000, by omega⟩
    intro a
    match a with
    | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
    | ⟨1, _⟩ => show win0_3.index _ (1 : Fin 2) * 192 ≤ (i 1).val ∧ (i 1).val < win0_3.index _ (1 : Fin 2) * 192 + 192; rw [e7]; omega

end Cert.KernelIdeal.Run

end
-- ==== Proof.IdealArray1.lean ====
/-
  Region 1's output array after its twenty grid points: entry by entry, the positive part of the sum of the three arrays the
  region reads. Point t stores rows 5000·t … 5000·t + 4999 computed from the same rows of the three arrays, and the twenty
  blocks tile the array.
-/
import proofs.«130618_j3401614098589_1_alg».proof.Proof.IdealBody1
import proofs.«130618_j3401614098589_1_alg».proof.Proof.LibBlockForms
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)
open Cert.Fused

variable (V : (c : Dev nD) → (b : Ref sig .tc) → Buf (Elt Ideal) ((c : Thread nD τ).loc b))

theorem hz1 : (![0, 0] : Fin 2 → Nat) = fun _ => 0 := funext fun a => by fin_cases a <;> rfl

/-- The value the body stores is the positive part of the sum of the three blocks it loaded. -/
theorem pay1_eq (x0 x1 x2 : Vec Ideal S5000x64 .f32) : k1_pay1 (F := Ideal) x0 x1 x2 = positive3 x0 x1 x2 :=
  positive_block shapeCasts_S5000x64_S5000x64 x0 x1 x2

/-- The windows' block indices over the grid: all four move with the point. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The array the region leaves: the positive part of the sum of the arrays it reads, as it finds them. -/
def combined1 (c : Dev nD) : S100000x64.Idx → EReal :=
  positive3 (V c main_v11 : S100000x64.Idx → EReal) (V c main_v30 : S100000x64.Idx → EReal) (V c main_v49 : S100000x64.Idx → EReal)

/-- What point `t` writes back is block `t` of that array. -/
theorem flushed1_eq (c : Dev nD) (t : Fin cfg1.N) :
    (dat1 V c).flushed 3 t = ((cfg1.win 3).blk t).view.read (Elt Ideal) (combined1 V c) := by
  show (cfg1.win 3).cut (grid1.coords t) ((dat1 V c).after 3 t) = _
  rw [after1_3]
  unfold out1_3
  rw [View.canon_unit_zero hz1]
  simp only [View.ld_unit_zero (S := S5000x64) hz1]
  rw [pay1_eq]
  obtain ⟨e0, e1, e2, e3, e4, e5, e6, e7⟩ := idx1 t
  funext j
  show positive3 (iblk1 V c 0 t) (iblk1 V c 1 t) (iblk1 V c 2 t) j
    = combined1 V c (((cfg1.win 3).blk t).view.emb j)
  refine positive3_at _ _ _ _ _ _ j _ ?_ ?_ ?_
  · show (V c main_v11 : S100000x64.Idx → EReal) (((cfg1.win 0).blk t).view.emb j) = (V c main_v11 : S100000x64.Idx → EReal) (((cfg1.win 3).blk t).view.emb j)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  · show (V c main_v30 : S100000x64.Idx → EReal) (((cfg1.win 1).blk t).view.emb j) = (V c main_v30 : S100000x64.Idx → EReal) (((cfg1.win 3).blk t).view.emb j)
    refine congrArg _ (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  · show (V c main_v49 : S100000x64.Idx → EReal) (((cfg1.win 2).blk t).view.emb j) = (V c main_v49 : S100000x64.Idx → EReal) (((cfg1.win 3).blk t).view.emb j)
    refine congrArg _ (funext fun a => Fin.ext ?_)
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 64 + 1 * (j 1).val = win1_3.index t (1 : Fin 2) * 64 + 1 * (j 1).val; omega

/-- An index of the array is in point `t`'s block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v50).slice (win1_3.rect t)).set ↔ _
  rw [View.set_slice_whole, Rect.mem_set_unit]
  exact Iff.rfl

/-- THE ARRAY after the region. -/
theorem array1 (c : Dev nD) : (dat1 V c).arrAt 3 cfg1.N = combined1 V c :=
  (dat1 V c).arrAt_eq_of_cover 3 (combined1 V c) (fun t _ => flushed1_eq V c t) fun i => by
    have hi0 : (i 0).val < 100000 := (i 0).isLt
    have hi1 : (i 1).val < 64 := (i 1).isLt
    have hN : cfg1.N = 20 := N_1
    refine ⟨⟨(i 0).val / 5000, by omega⟩, flush1_3 _, ?_⟩
    rw [mem_blk1]
    obtain ⟨e0, e1, e2, e3, e4, e5, e6, e7⟩ := idx1 ⟨(i 0).val / 5000, by omega⟩
    intro a
    match a with
    | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
    | ⟨1, _⟩ => show win1_3.index _ (1 : Fin 2) * 64 ≤ (i 1).val ∧ (i 1).val < win1_3.index _ (1 : Fin 2) * 64 + 64; rw [e7]; omega

end Cert.KernelIdeal.Run

end
-- ==== Proof.IdealArray2.lean ====
/-
  Region 2's output array after its twenty grid points: the biased product of the three arrays the region reads.
  Point t stores rows 5000·t … 5000·t + 4999; a row of the product depends on the same row of the left matrix only, so the
  block a point stores is that block of the whole product, and the twenty blocks tile the array.
-/
import proofs.«130618_j3401614098589_1_alg».proof.Proof.IdealBody2
import proofs.«130618_j3401614098589_1_alg».proof.Proof.LibBlockForms
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)
open Cert.Fused Cert.Gcn Cert.MatrixProduct

variable (V : (c : Dev nD) → (b : Ref sig .tc) → Buf (Elt Ideal) ((c : Thread nD τ).loc b))

theorem hz2 : (![0, 0] : Fin 2 → Nat) = fun _ => 0 := funext fun a => by fin_cases a <;> rfl

/-- The value the body stores is the biased product of the three blocks it loaded. -/
theorem pay2_eq (x0 : Vec Ideal S5000x64 .f32) (x1 : Vec Ideal S64x192 .f32) (x2 : Vec Ideal S1x192 .f32) :
    k2_pay1 (F := Ideal) x0 x1 x2 = biasedProduct x0 x1 x2 :=
  dense_block_cast dot_S5000x64_S64x192_S5000x192_1_0_0_1_n_n_wf bitsLt_bf16_f32 shapeCasts_S5000x64_S5000x64 shapeCasts_S64x192_S64x192 shapeCasts_S1x192_S1x192 broadcasts_S1x192_S5000x192 x0 x1 x2

/-- The windows' block indices over the grid: the row-block windows move with the point, the other two stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The array the region leaves: the biased product of the arrays it reads, as it finds them. -/
def product2 (c : Dev nD) : S100000x192.Idx → EReal :=
  biasedProduct (V c main_v50 : S100000x64.Idx → EReal) (V c main_v55 : S64x192.Idx → EReal) (V c main_v58 : S1x192.Idx → EReal)

/-- What point `t` writes back is block `t` of the product. -/
theorem flushed2_eq (c : Dev nD) (t : Fin cfg2.N) :
    (dat2 V c).flushed 3 t = ((cfg2.win 3).blk t).view.read (Elt Ideal) (product2 V c) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x192) hz2, View.ld_unit_zero (S := S1x192) hz2]
  rw [pay2_eq]
  obtain ⟨e0, e1, e2, e3, e4, e5, e6, e7⟩ := idx2 t
  have hN : cfg2.N = 20 := N_2
  funext j
  obtain ⟨p, q, rfl⟩ : ∃ (p : Fin 5000) (q : Fin 192), j = ix2 p q := ⟨j 0, j 1, eq_ix2 j⟩
  have hr : t.val * 5000 + p.val < 100000 := by have := t.isLt; have := p.isLt; omega
  show biasedProduct (iblk2 V c 0 t) (iblk2 V c 1 t) (iblk2 V c 2 t) (ix2 p q)
    = product2 V c (((cfg2.win 3).blk t).view.emb (ix2 p q))
  have hemb : ((cfg2.win 3).blk t).view.emb (ix2 p q) = ix2 (⟨t.val * 5000 + p.val, hr⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 192 + 1 * q.val = q.val; omega
  rw [hemb]
  refine biasedProduct_row _ _ _ _ _ _ p q ⟨_, hr⟩ (fun k => ?_) (fun k => ?_) ?_
  · show (V c main_v50 : S100000x64.Idx → EReal) (((cfg2.win 0).blk t).view.emb (ix2 p k)) = (V c main_v50 : S100000x64.Idx → EReal) (ix2 ⟨_, hr⟩ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · show (V c main_v55 : S64x192.Idx → EReal) (((cfg2.win 1).blk t).view.emb (ix2 k q)) = (V c main_v55 : S64x192.Idx → EReal) (ix2 k q)
    refine congrArg _ (funext fun a => Fin.ext ?_)
    match a with
    | ⟨0, _⟩ => show win2_1.index t (0 : Fin 2) * 64 + 1 * k.val = k.val; omega
    | ⟨1, _⟩ => show win2_1.index t (1 : Fin 2) * 192 + 1 * q.val = q.val; omega
  · show (V c main_v58 : S1x192.Idx → EReal) (((cfg2.win 2).blk t).view.emb (ix2 (0 : Fin 1) q)) = (V c main_v58 : S1x192.Idx → EReal) (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 192 + 1 * q.val = q.val; omega

/-- An index of the array is in point `t`'s block iff each coordinate is in the block's range on its axis. -/
theorem mem_blk2 (t : Fin cfg2.N) (i : S100000x192.Idx) :
    i ∈ ((cfg2.win 3).blk t).view.set ↔ ∀ a : Fin 2, win2_3.index t a * S5000x192.size a ≤ (i a).val ∧ (i a).val < win2_3.index t a * S5000x192.size a + S5000x192.size a := by
  show i ∈ ((View.whole main_v59).slice (win2_3.rect t)).set ↔ _
  rw [View.set_slice_whole, Rect.mem_set_unit]
  exact Iff.rfl

/-- THE ARRAY after the region: the product. -/
theorem array2 (c : Dev nD) : (dat2 V c).arrAt 3 cfg2.N = product2 V c :=
  (dat2 V c).arrAt_eq_of_cover 3 (product2 V c) (fun t _ => flushed2_eq V c t) fun i => by
    have hi0 : (i 0).val < 100000 := (i 0).isLt
    have hi1 : (i 1).val < 192 := (i 1).isLt
    have hN : cfg2.N = 20 := N_2
    refine ⟨⟨(i 0).val / 5000, by omega⟩, flush2_3 _, ?_⟩
    rw [mem_blk2]
    obtain ⟨e0, e1, e2, e3, e4, e5, e6, e7⟩ := idx2 ⟨(i 0).val / 5000, by omega⟩
    intro a
    match a with
    | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
    | ⟨1, _⟩ => show win2_3.index _ (1 : Fin 2) * 192 ≤ (i 1).val ∧ (i 1).val < win2_3.index _ (1 : Fin 2) * 192 + 192; rw [e7]; omega

end Cert.KernelIdeal.Run

end
-- ==== Proof.IdealArray3.lean ====
/-
  Region 3's output array after its twenty grid points: entry by entry, the positive part of the sum of the three arrays the
  region reads. Point t stores rows 5000·t … 5000·t + 4999 computed from the same rows of the three arrays, and the twenty
  blocks tile the array.
-/
import proofs.«130618_j3401614098589_1_alg».proof.Proof.IdealBody3
import proofs.«130618_j3401614098589_1_alg».proof.Proof.LibBlockForms
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)
open Cert.Fused

variable (V : (c : Dev nD) → (b : Ref sig .tc) → Buf (Elt Ideal) ((c : Thread nD τ).loc b))

theorem hz3 : (![0, 0] : Fin 2 → Nat) = fun _ => 0 := funext fun a => by fin_cases a <;> rfl

/-- The value the body stores is the positive part of the sum of the three blocks it loaded. -/
theorem pay3_eq (x0 x1 x2 : Vec Ideal S5000x64 .f32) : k3_pay1 (F := Ideal) x0 x1 x2 = positive3 x0 x1 x2 :=
  positive_block shapeCasts_S5000x64_S5000x64 x0 x1 x2

/-- The windows' block indices over the grid: all four move with the point. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The array the region leaves: the positive part of the sum of the arrays it reads, as it finds them. -/
def combined3 (c : Dev nD) : S100000x64.Idx → EReal :=
  positive3 (V c main_v62 : S100000x64.Idx → EReal) (V c main_v81 : S100000x64.Idx → EReal) (V c main_v100 : S100000x64.Idx → EReal)

/-- What point `t` writes back is block `t` of that array. -/
theorem flushed3_eq (c : Dev nD) (t : Fin cfg3.N) :
    (dat3 V c).flushed 3 t = ((cfg3.win 3).blk t).view.read (Elt Ideal) (combined3 V c) := by
  show (cfg3.win 3).cut (grid3.coords t) ((dat3 V c).after 3 t) = _
  rw [after3_3]
  unfold out3_3
  rw [View.canon_unit_zero hz3]
  simp only [View.ld_unit_zero (S := S5000x64) hz3]
  rw [pay3_eq]
  obtain ⟨e0, e1, e2, e3, e4, e5, e6, e7⟩ := idx3 t
  funext j
  show positive3 (iblk3 V c 0 t) (iblk3 V c 1 t) (iblk3 V c 2 t) j
    = combined3 V c (((cfg3.win 3).blk t).view.emb j)
  refine positive3_at _ _ _ _ _ _ j _ ?_ ?_ ?_
  · show (V c main_v62 : S100000x64.Idx → EReal) (((cfg3.win 0).blk t).view.emb j) = (V c main_v62 : S100000x64.Idx → EReal) (((cfg3.win 3).blk t).view.emb j)
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  · show (V c main_v81 : S100000x64.Idx → EReal) (((cfg3.win 1).blk t).view.emb j) = (V c main_v81 : S100000x64.Idx → EReal) (((cfg3.win 3).blk t).view.emb j)
    refine congrArg _ (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * (j 1).val = win3_3.index t (1 : Fin 2) * 64 + 1 * (j 1).val; omega
  · show (V c main_v100 : S100000x64.Idx → EReal) (((cfg3.win 2).blk t).view.emb j) = (V c main_v100 : S100000x64.Idx → EReal) (((cfg3.win 3).blk t).view.emb j)
    refine congrArg _ (funext fun a => Fin.ext ?_)
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 64 + 1 * (j 1).val = win3_3.index t (1 : Fin 2) * 64 + 1 * (j 1).val; omega

/-- An index of the array is in point `t`'s block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v101).slice (win3_3.rect t)).set ↔ _
  rw [View.set_slice_whole, Rect.mem_set_unit]
  exact Iff.rfl

/-- THE ARRAY after the region. -/
theorem array3 (c : Dev nD) : (dat3 V c).arrAt 3 cfg3.N = combined3 V c :=
  (dat3 V c).arrAt_eq_of_cover 3 (combined3 V c) (fun t _ => flushed3_eq V c t) fun i => by
    have hi0 : (i 0).val < 100000 := (i 0).isLt
    have hi1 : (i 1).val < 64 := (i 1).isLt
    have hN : cfg3.N = 20 := N_3
    refine ⟨⟨(i 0).val / 5000, by omega⟩, flush3_3 _, ?_⟩
    rw [mem_blk3]
    obtain ⟨e0, e1, e2, e3, e4, e5, e6, e7⟩ := idx3 ⟨(i 0).val / 5000, by omega⟩
    intro a
    match a with
    | ⟨0, _⟩ => show win3_3.index _ (0 : Fin 2) * 5000 ≤ (i 0).val ∧ (i 0).val < win3_3.index _ (0 : Fin 2) * 5000 + 5000; rw [e6]; show (i 0).val / 5000 * 5000 ≤ (i 0).val ∧ (i 0).val < (i 0).val / 5000 * 5000 + 5000; omega
    | ⟨1, _⟩ => show win3_3.index _ (1 : Fin 2) * 64 ≤ (i 1).val ∧ (i 1).val < win3_3.index _ (1 : Fin 2) * 64 + 64; rw [e7]; omega

end Cert.KernelIdeal.Run

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibFusedDense.lean ====
/-
  A dense layer computed once for three weight matrices, and read back in thirds.

  Put three K × N weight matrices side by side into one K × 3N matrix, and lay a vector of 2N zeros followed by a bias of
  length N out as a 1 × 3N row. The product of an M × K matrix X by the wide matrix, plus the row, is an M × 3N array whose
  three column blocks of width N are X·W₀, X·W₁ and X·W₂ + b: a product's entry (r, q) sums over one column of the right
  factor only, a column of the wide matrix is a column of one of the three, and adding zero changes no extended real.
-/
import proofs.«130618_j3401614098589_1_alg».proof.Proof.LibBiasedBlock
import proofs.«130618_j3401614098589_1_alg».proof.Proof.LibConcatRead
import Idealize.ShloMosaic.PureOps.Ideal.Laws

noncomputable section

open scoped BigOperators

namespace Cert.Fused

open Idealize.ShloMosaic Idealize.ShloMosaic.ValueIdx Cert.MatrixProduct Cert.Gcn

variable {α : Type}

/-- Three vectors end to end, read in the FIRST: position `q' = q`. -/
theorem concat3_vec_first {n0 n1 n2 n : ℕ} (x0 : (⟨1, ![n0]⟩ : Shape).Idx → α) (x1 : (⟨1, ![n1]⟩ : Shape).Idx → α)
    (x2 : (⟨1, ![n2]⟩ : Shape).Idx → α)
    (h : Shape.Concatenates [⟨1, ![n0]⟩, ⟨1, ![n1]⟩, ⟨1, ![n2]⟩] ⟨1, ![n]⟩ 0) (q : Fin n0) (q' : Fin n) (hq : q'.val = q.val) :
    concatenate ⟨1, ![n]⟩ 0 [⟨⟨1, ![n0]⟩, x0⟩, ⟨⟨1, ![n1]⟩, x1⟩, ⟨⟨1, ![n2]⟩, x2⟩] h (ix1 q') = x0 (ix1 q) :=
  concatenate_apply_piece 0 [⟨⟨1, ![n0]⟩, x0⟩, ⟨⟨1, ![n1]⟩, x1⟩, ⟨⟨1, ![n2]⟩, x2⟩] h (ix1 q') 0 (by simp) _ x0 rfl rfl
    0 rfl (ix1 q) (fun b hb => by
      match b, hb with
      | ⟨0, _⟩, hb => exact absurd rfl hb) (by show 0 + q.val = q'.val; omega)

/-- Three vectors end to end, read in the SECOND: position `q' = n0 + q`. -/
theorem concat3_vec_second {n0 n1 n2 n : ℕ} (x0 : (⟨1, ![n0]⟩ : Shape).Idx → α) (x1 : (⟨1, ![n1]⟩ : Shape).Idx → α)
    (x2 : (⟨1, ![n2]⟩ : Shape).Idx → α)
    (h : Shape.Concatenates [⟨1, ![n0]⟩, ⟨1, ![n1]⟩, ⟨1, ![n2]⟩] ⟨1, ![n]⟩ 0) (q : Fin n1) (q' : Fin n) (hq : q'.val = n0 + q.val) :
    concatenate ⟨1, ![n]⟩ 0 [⟨⟨1, ![n0]⟩, x0⟩, ⟨⟨1, ![n1]⟩, x1⟩, ⟨⟨1, ![n2]⟩, x2⟩] h (ix1 q') = x1 (ix1 q) :=
  concatenate_apply_piece 0 [⟨⟨1, ![n0]⟩, x0⟩, ⟨⟨1, ![n1]⟩, x1⟩, ⟨⟨1, ![n2]⟩, x2⟩] h (ix1 q') 1 (by simp) _ x1 rfl rfl
    n0 (by simp) (ix1 q) (fun b hb => by
      match b, hb with
      | ⟨0, _⟩, hb => exact absurd rfl hb) (by show n0 + q.val = q'.val; omega)

/-- Three vectors end to end, read in the THIRD: position `q' = n0 + n1 + q`. -/
theorem concat3_vec_third {n0 n1 n2 n : ℕ} (x0 : (⟨1, ![n0]⟩ : Shape).Idx → α) (x1 : (⟨1, ![n1]⟩ : Shape).Idx → α)
    (x2 : (⟨1, ![n2]⟩ : Shape).Idx → α)
    (h : Shape.Concatenates [⟨1, ![n0]⟩, ⟨1, ![n1]⟩, ⟨1, ![n2]⟩] ⟨1, ![n]⟩ 0) (q : Fin n2) (q' : Fin n) (hq : q'.val = n0 + n1 + q.val) :
    concatenate ⟨1, ![n]⟩ 0 [⟨⟨1, ![n0]⟩, x0⟩, ⟨⟨1, ![n1]⟩, x1⟩, ⟨⟨1, ![n2]⟩, x2⟩] h (ix1 q') = x2 (ix1 q) :=
  concatenate_apply_piece 0 [⟨⟨1, ![n0]⟩, x0⟩, ⟨⟨1, ![n1]⟩, x1⟩, ⟨⟨1, ![n2]⟩, x2⟩] h (ix1 q') 2 (by simp) _ x2 rfl rfl
    (n0 + n1) (by simp) (ix1 q) (fun b hb => by
      match b, hb with
      | ⟨0, _⟩, hb => exact absurd rfl hb) (by show n0 + n1 + q.val = q'.val; omega)

/-- A block of N columns of a biased product, starting at column `off`: when the wide right factor's columns there are
    the columns of `W` and the row's entries there are `bq`, the block is `X·W` with `bq` added along the rows. -/
theorem block_of_biasedProduct {M K N N3 : ℕ} (X : (⟨2, ![M, K]⟩ : Shape).Idx → EReal) (Wc : (⟨2, ![K, N3]⟩ : Shape).Idx → EReal)
    (B : (⟨2, ![1, N3]⟩ : Shape).Idx → EReal) (W : (⟨2, ![K, N]⟩ : Shape).Idx → EReal) (bq : Fin N → EReal) (off : ℕ)
    (hoff : off + N ≤ N3)
    (hs : (⟨2, ![M, N3]⟩ : Shape).Slices ![0, off] ⟨2, ![M, N]⟩)
    (hW : ∀ (c : Fin K) (q : Fin N) (q' : Fin N3), q'.val = off + q.val → Wc (ix2 c q') = W (ix2 c q))
    (hB : ∀ (q : Fin N) (q' : Fin N3), q'.val = off + q.val → B (ix2 (0 : Fin 1) q') = bq q) :
    extractStridedSlice ⟨2, ![M, N]⟩ ![0, off] (biasedProduct X Wc B) hs = fun i => mm X W i + bq (i 1) := by
  funext i
  obtain ⟨r, q, rfl⟩ : ∃ (r : Fin M) (q : Fin N), i = ix2 r q := ⟨i 0, i 1, eq_ix2 i⟩
  have hq : off + q.val < N3 := by have := q.isLt; omega
  rw [extractStridedSlice_apply ![0, off] (biasedProduct X Wc B) hs (ix2 r q) (ix2 r ⟨off + q.val, hq⟩) (fun a => by
    match a with
    | ⟨0, _⟩ => show r.val = 0 + r.val; omega
    | ⟨1, _⟩ => rfl)]
  show mm X Wc (ix2 r ⟨off + q.val, hq⟩) + B (ix2 (0 : Fin 1) ⟨off + q.val, hq⟩) = mm X W (ix2 r q) + bq q
  rw [hB q ⟨off + q.val, hq⟩ rfl, mm_apply, mm_apply]
  exact congrArg (· + bq q) (Finset.sum_congr rfl fun c _ => by rw [hW c q ⟨off + q.val, hq⟩ rfl])

/-- Two vectors of `N` zeros and a bias of length `N`, end to end, as a 1 × 3N row. -/
def biasRow {N N3 : ℕ} (z : (⟨1, ![N]⟩ : Shape).Idx → EReal) (b : (⟨1, ![N]⟩ : Shape).Idx → EReal)
    (hc : Shape.Concatenates [⟨1, ![N]⟩, ⟨1, ![N]⟩, ⟨1, ![N]⟩] ⟨1, ![N3]⟩ 0)
    (hr : (⟨1, ![N3]⟩ : Shape).ShapeCasts ⟨2, ![1, N3]⟩) : (⟨2, ![1, N3]⟩ : Shape).Idx → EReal :=
  shapeCast ⟨2, ![1, N3]⟩ (concatenate ⟨1, ![N3]⟩ 0 [⟨⟨1, ![N]⟩, z⟩, ⟨⟨1, ![N]⟩, z⟩, ⟨⟨1, ![N]⟩, b⟩] hc) hr

/-- The three weight matrices side by side. -/
def wide {K N N3 : ℕ} (W0 W1 W2 : (⟨2, ![K, N]⟩ : Shape).Idx → EReal)
    (hc : Shape.Concatenates [⟨2, ![K, N]⟩, ⟨2, ![K, N]⟩, ⟨2, ![K, N]⟩] ⟨2, ![K, N3]⟩ 1) : (⟨2, ![K, N3]⟩ : Shape).Idx → EReal :=
  concatenate ⟨2, ![K, N3]⟩ 1 [⟨⟨2, ![K, N]⟩, W0⟩, ⟨⟨2, ![K, N]⟩, W1⟩, ⟨⟨2, ![K, N]⟩, W2⟩] hc

section Thirds

variable {M K N N3 : ℕ} (X : (⟨2, ![M, K]⟩ : Shape).Idx → EReal) (W0 W1 W2 : (⟨2, ![K, N]⟩ : Shape).Idx → EReal)
  (z b : (⟨1, ![N]⟩ : Shape).Idx → EReal)
  (hcw : Shape.Concatenates [⟨2, ![K, N]⟩, ⟨2, ![K, N]⟩, ⟨2, ![K, N]⟩] ⟨2, ![K, N3]⟩ 1)
  (hcb : Shape.Concatenates [⟨1, ![N]⟩, ⟨1, ![N]⟩, ⟨1, ![N]⟩] ⟨1, ![N3]⟩ 0)
  (hr : (⟨1, ![N3]⟩ : Shape).ShapeCasts ⟨2, ![1, N3]⟩)
  (hz : ∀ q : Fin N, z (ix1 q) = 0) (h3 : N3 = N + N + N)

include hz h3

/-- The first third of the columns is `X·W₀`. -/
theorem first_third (hs : (⟨2, ![M, N3]⟩ : Shape).Slices ![0, 0] ⟨2, ![M, N]⟩) :
    extractStridedSlice ⟨2, ![M, N]⟩ ![0, 0] (biasedProduct X (wide W0 W1 W2 hcw) (biasRow z b hcb hr)) hs = mm X W0 := by
  rw [block_of_biasedProduct X (wide W0 W1 W2 hcw) (biasRow z b hcb hr) W0 (fun _ => 0) 0 (by omega) hs
    (fun c q q' hq => concat3_cols_first W0 W1 W2 hcw c q q' (by omega))
    (fun q q' hq => by
      unfold biasRow
      rw [shapeCast_a_1a_apply, concat3_vec_first z z b hcb q q' (by omega), hz])]
  funext i; exact add_zero _

/-- The second third of the columns is `X·W₁`. -/
theorem second_third (hs : (⟨2, ![M, N3]⟩ : Shape).Slices ![0, N] ⟨2, ![M, N]⟩) :
    extractStridedSlice ⟨2, ![M, N]⟩ ![0, N] (biasedProduct X (wide W0 W1 W2 hcw) (biasRow z b hcb hr)) hs = mm X W1 := by
  rw [block_of_biasedProduct X (wide W0 W1 W2 hcw) (biasRow z b hcb hr) W1 (fun _ => 0) N (by omega) hs
    (fun c q q' hq => concat3_cols_second W0 W1 W2 hcw c q q' (by omega))
    (fun q q' hq => by
      unfold biasRow
      rw [shapeCast_a_1a_apply, concat3_vec_second z z b hcb q q' (by omega), hz])]
  funext i; exact add_zero _

/-- The last third of the columns is `X·W₂` plus the bias along the rows. -/
theorem last_third (hs : (⟨2, ![M, N3]⟩ : Shape).Slices ![0, N + N] ⟨2, ![M, N]⟩) :
    extractStridedSlice ⟨2, ![M, N]⟩ ![0, N + N] (biasedProduct X (wide W0 W1 W2 hcw) (biasRow z b hcb hr)) hs
      = biasedProduct X W2 (rowOf b) := by
  rw [block_of_biasedProduct X (wide W0 W1 W2 hcw) (biasRow z b hcb hr) W2 (fun q => b (ix1 q)) (N + N) (by omega) hs
    (fun c q q' hq => concat3_cols_third W0 W1 W2 hcw c q q' (by omega))
    (fun q q' hq => by
      unfold biasRow
      rw [shapeCast_a_1a_apply, concat3_vec_third z z b hcb q q' (by omega)])]
  rfl

end Thirds

end Cert.Fused

end
-- ==== Proof.RefForms.lean ====
/-
  The reference program's value as a function of its arguments.

  One layer maps a node-feature matrix x (100000 × 64), the edge list e (2 × 1250000: a row of source nodes and a row of
  target nodes), three 64 × 64 weight matrices W₁, W₂, Wᵣ and a bias b to

      max( x·Wᵣ + b + mean₁ + mean₂ , 0 ),

  where mean₁ gathers the rows of x·W₁ at the edges' source nodes and averages them over each target node (a sum scattered
  by target node, divided by the larger of one and the number of edges into the node), and mean₂ does the same with
  x·W₂, the roles of source and target exchanged. The program applies two such layers, the second to the first's result.
-/
import proofs.«130618_j3401614098589_1_alg».proof.Proof.Gen.ReferenceIdeal.Run

noncomputable section

namespace Cert.ReferenceIdeal.Forms

open Cert.ReferenceIdeal Cert.ReferenceIdeal.Gen Idealize.ShloMosaic Idealize.ShloMosaic.TcCoe Idealize.SL.Sem

variable {F : FTy → Type} [FloatOps F]

abbrev Mat : Type := (⟨S100000x64, .f32⟩ : BufTy).Contents (Elt F)
abbrev Wt : Type := (⟨S64x64, .f32⟩ : BufTy).Contents (Elt F)
abbrev Bias : Type := (⟨S64, .f32⟩ : BufTy).Contents (Elt F)
abbrev Edges : Type := (⟨S2x1250000, .i32⟩ : BufTy).Contents (Elt F)
abbrev EdgeRow : Type := (⟨S1250000, .i32⟩ : BufTy).Contents (Elt F)

/-- The edges' source nodes: row 0 of the edge list. -/
def sources (e : Edges (F := F)) : EdgeRow (F := F) :=
  shapeCast S1250000 (extractStridedSlice S1x1250000 ![0, 0] e slices_S2x1250000_S1x1250000_0_0) shapeCasts_S1x1250000_S1250000

/-- The edges' target nodes: row 1 of the edge list. -/
def targets (e : Edges (F := F)) : EdgeRow (F := F) :=
  shapeCast S1250000 (extractStridedSlice S1x1250000 ![1, 0] e slices_S2x1250000_S1x1250000_1_0) shapeCasts_S1x1250000_S1250000

/-- The mean over incoming edges: the rows of `p` at the nodes `g` names (a negative number counted from the end), summed
    into the rows the nodes `s` name, each row then divided by the larger of one and the number of edges `s` sends to it. -/
def scatterMean (p : Mat (F := F)) (g s : EdgeRow (F := F)) : Mat (F := F) :=
  Host.divf
    (Host.scatterAdd scatter_S100000x64_S1250000x1_S1250000x64_1_0_0_1
      (broadcastInDim S100000x64 ![] bcast_S_S100000x64 (constant S_ .f32 0x00000000#32))
      (broadcastInDim S1250000x1 ![0] bcast_S1250000_S1250000x1_0 s)
      (Host.gather gather_S100000x64_S1250000x1_S1250000x64_1_0_n_n_0_1_164 p
        (broadcastInDim S1250000x1 ![0] bcast_S1250000_S1250000x1_0
          (select (cmpi .slt g (broadcastInDim S1250000 ![] bcast_S_S1250000 (constantI S_ 32 0#32)))
            (addi g (broadcastInDim S1250000 ![] bcast_S_S1250000 (constantI S_ 32 100000#32))) g))))
    (broadcastInDim S100000x64 ![0, 1] bcast_S100000x1_S100000x64_0_1
      (broadcastInDim S100000x1 ![0] bcast_S100000_S100000x1_0
        (maximumf
          (Host.scatterAdd scatter_S100000_S1250000x1_S1250000_n_0_0_1
            (broadcastInDim S100000 ![] bcast_S_S100000 (constant S_ .f32 0x00000000#32))
            (broadcastInDim S1250000x1 ![0] bcast_S1250000_S1250000x1_0 s)
            (broadcastInDim S1250000 ![] bcast_S_S1250000 (constant S_ .f32 0x3F800000#32)))
          (broadcastInDim S100000 ![] bcast_S_S100000 (constant S_ .f32 0x3F800000#32)))))

/-- The last step of a layer: the positive part of the sum of three arrays, added left to right. -/
def positiveSum (a b c : Mat (F := F)) : Mat (F := F) :=
  maximumf (addf (addf a b) c) (broadcastInDim S100000x64 ![] bcast_S_S100000x64 (constant S_ .f32 0x00000000#32))

/-- A product of the node features by a weight matrix. -/
def times (x : Mat (F := F)) (W : Wt (F := F)) : Mat (F := F) :=
  Host.dotGeneral dot_S100000x64_S64x64_S100000x64_1_0_0_1_n_n none x W

/-- The bias repeated down the rows. -/
def biasRows (b : Bias (F := F)) : Mat (F := F) :=
  broadcastInDim S100000x64 ![0, 1] bcast_S1x64_S100000x64_0_1 (broadcastInDim S1x64 ![1] bcast_S64_S1x64_1 b)

/-- One layer, from its three pieces: the biased product, and the two means. -/
def layerOf (r p1 p2 : Mat (F := F)) (e : Edges (F := F)) : Mat (F := F) :=
  positiveSum r (scatterMean p1 (sources e) (targets e)) (scatterMean p2 (targets e) (sources e))

/-- One layer. -/
def layer (x : Mat (F := F)) (e : Edges (F := F)) (W1 W2 Wr : Wt (F := F)) (b : Bias (F := F)) : Mat (F := F) :=
  layerOf (addf (times x Wr) (biasRows b)) (times x W1) (times x W2) e

set_option maxRecDepth 8192 in
/-- The run's result is the second layer of the first layer of the arguments. -/
theorem result_eq (m : (ℓ : Loc nD τ sig) → Buf (Elt F) ℓ) (c : Dev nD) :
    Cert.ReferenceIdeal.Value.res_main_v101 m c
      = layer (layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)))
          (m ((c.tc : Thread nD τ).loc main_arg1))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v101
  rfl

end Cert.ReferenceIdeal.Forms

end
-- ==== Proof.LayerBridge.lean ====
/-
  One layer in its two spellings.

  The reference computes a layer from three separate products x·Wᵣ + b, x·W₁, x·W₂. The kernel computes ONE product of x by
  the three weight matrices side by side, plus a row holding 2·64 zeros and then the bias, and reads the three pieces back
  as the column blocks 128…191, 0…63 and 64…127 of that array. Over the extended reals the column blocks ARE the three
  separate products (the last with its bias), so the two means and the final positive part are taken of the same arrays.
-/
import proofs.«130618_j3401614098589_1_alg».proof.Proof.LibFusedDense
import proofs.«130618_j3401614098589_1_alg».proof.Proof.LibBlockForms
import proofs.«130618_j3401614098589_1_alg».proof.Proof.RefForms
import Idealize.ShloMosaic.Lib.Pipeline.Value
import Idealize.ShloMosaic.Lib.ValueIdx

noncomputable section

namespace Cert.Fused

open Idealize.ShloMosaic Idealize.ShloMosaic.ValueIdx Cert.MatrixProduct Cert.Gcn
open Cert.ReferenceIdeal Cert.ReferenceIdeal.Gen Cert.ReferenceIdeal.Forms

/-- The reference's product of the node features by a weight matrix is the matrix product. -/
theorem times_eq_mm (x : Mat (F := Ideal)) (W : Wt (F := Ideal)) : times x W = mm x W :=
  dotGeneral_eq_mm dot_S100000x64_S64x64_S100000x64_1_0_0_1_n_n_wf none x W

/-- The reference's biased product: the product plus the bias repeated down the rows. -/
theorem biased_eq (x : Mat (F := Ideal)) (W : Wt (F := Ideal)) (b : Bias (F := Ideal)) :
    addf (times x W) (biasRows b) = biasedProduct x W (rowOf b) := by
  unfold times biasRows
  rw [bcast_row_eq_rowOf b bcast_S64_S1x64_1]
  exact host_linear dot_S100000x64_S64x64_S100000x64_1_0_0_1_n_n_wf bcast_S1x64_S100000x64_0_1 x W (rowOf b)

/-- The reference's last step is the positive part of the sum of the three arrays. -/
theorem positiveSum_eq (a b c : Mat (F := Ideal)) : positiveSum a b c = positive3 a b c := by
  funext i
  unfold positiveSum positive3
  rw [maximumf_apply, addf_apply, addf_apply]
  refine congrArg (max (a i + b i + c i)) ?_
  exact broadcastInDim_apply _ bcast_S_S100000x64 _ i (fun a => a.elim0) (fun a => a.elim0)

/-- A splat of the zero word over 64 entries is zero at every entry. -/
theorem zeros_apply (h : S_.BroadcastsInDim S64 (![] : Fin 0 → Fin S64.rank)) (q : Fin 64) :
    broadcastInDim S64 ![] h (constant (F := Ideal) S_ .f32 0x00000000#32) (ix1 q) = 0 := by
  rw [broadcastInDim_apply _ h _ (ix1 q) (fun a => a.elim0) (fun a => a.elim0), constant_apply, Ideal.ofBits_zero_f32]

/-- THE LAYER, FUSED: the positive part of the sum of the last column block of the fused product and the two means taken of
    its first two column blocks is the reference's layer. -/
theorem fused_layer (x : Mat (F := Ideal)) (e : Edges (F := Ideal)) (W1 W2 Wr : Wt (F := Ideal)) (b : Bias (F := Ideal))
    (z : (⟨1, ![64]⟩ : Shape).Idx → EReal) (hz : ∀ q : Fin 64, z (ix1 q) = 0)
    (hcw : Shape.Concatenates [⟨2, ![64, 64]⟩, ⟨2, ![64, 64]⟩, ⟨2, ![64, 64]⟩] ⟨2, ![64, 192]⟩ 1)
    (hcb : Shape.Concatenates [⟨1, ![64]⟩, ⟨1, ![64]⟩, ⟨1, ![64]⟩] ⟨1, ![192]⟩ 0)
    (hr : (⟨1, ![192]⟩ : Shape).ShapeCasts ⟨2, ![1, 192]⟩)
    (hs0 : (⟨2, ![100000, 192]⟩ : Shape).Slices ![0, 0] ⟨2, ![100000, 64]⟩)
    (hs1 : (⟨2, ![100000, 192]⟩ : Shape).Slices ![0, 64] ⟨2, ![100000, 64]⟩)
    (hs2 : (⟨2, ![100000, 192]⟩ : Shape).Slices ![0, 128] ⟨2, ![100000, 64]⟩) :
    positive3
        (extractStridedSlice ⟨2, ![100000, 64]⟩ ![0, 128] (biasedProduct x (wide W1 W2 Wr hcw) (biasRow z b hcb hr)) hs2)
        (scatterMean (extractStridedSlice ⟨2, ![100000, 64]⟩ ![0, 0] (biasedProduct x (wide W1 W2 Wr hcw) (biasRow z b hcb hr)) hs0)
          (sources e) (targets e))
        (scatterMean (extractStridedSlice ⟨2, ![100000, 64]⟩ ![0, 64] (biasedProduct x (wide W1 W2 Wr hcw) (biasRow z b hcb hr)) hs1)
          (targets e) (sources e))
      = layer x e W1 W2 Wr b := by
  rw [first_third x W1 W2 Wr z b hcw hcb hr hz rfl hs0, second_third x W1 W2 Wr z b hcw hcb hr hz rfl hs1,
    last_third x W1 W2 Wr z b hcw hcb hr hz rfl hs2]
  unfold layer layerOf
  rw [positiveSum_eq, biased_eq, times_eq_mm, times_eq_mm]

end Cert.Fused

end
-- ==== Proof.LibNaryThree.lean ====
/-
  A host line with three operands (a concatenation of three arrays), read after it has run.

  The line's result buffer holds the line's function of the three operands' contents, each read at its own buffer:
  the family of operands indexed by 0, 1, 2 is spelt out as three literal buffers, so that what each of them holds
  after the lines before can go on being rewritten, one buffer at a time.
-/
import Idealize.ShloMosaic.Lib.StableHlo.Run

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.LibNaryThreeSimp.lean ====
/-
  A host line with three operands, read after it has run, in the form a simplifier pass can use.

  The companion statement of `nary3_result`: the same equation with the result buffer's reference kept out of the
  simplifier's index, so that one pass over a long list of host lines rewrites a three-operand line (a concatenation
  of three arrays) like the one- and two-operand lines, and goes on into the three operands.
-/
import Idealize.ShloMosaic.Lib.StableHlo.Run
import proofs.«130618_j3401614098589_1_alg».proof.Proof.LibNaryThree

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplifier pass over a list of host lines that may hold three-operand lines. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.StableHlo
-- ==== Proof.LibHostLines.lean ====
/-
  Reading the operands of a host line that takes three operands.

  Such a line's value is a function of the family of its three operands, listed one after the other. The k-th member of
  a family listed that way is the k-th listed item; with these three equations a simplifier pass that has reached such a
  line goes on into each operand, reading what the lines before left in it. A concatenation's side condition mentions its list of pieces, which keeps a
  simplifier out of the list: the pieces are then compared one by one (`concat3_congr`).
-/
import proofs.«130618_j3401614098589_1_alg».proof.Proof.LibNaryThreeSimp

namespace Idealize.ShloMosaic.StableHlo

universe u

/-- The second of three listed items. -/
theorem cons3_one {α : Fin 3 → Sort u} (x : α 0) (p : ∀ i : Fin 2, α i.succ) : (Fin.cons x p : ∀ i, α i) 1 = p 0 := rfl
/-- The third of three listed items. -/
theorem cons3_two {α : Fin 3 → Sort u} (x : α 0) (p : ∀ i : Fin 2, α i.succ) : (Fin.cons x p : ∀ i, α i) 2 = p 1 := rfl
/-- The second of two listed items. -/
theorem cons2_one {α : Fin 2 → Sort u} (x : α 0) (p : ∀ i : Fin 1, α i.succ) : (Fin.cons x p : ∀ i, α i) 1 = p 0 := rfl

/-- A concatenation of three pieces whose pieces are equal one by one. -/
theorem concat3_congr {α : Type} {t : Shape} (a : Fin t.rank) {s0 s1 s2 : Shape} (x0 x0' : s0.Idx → α) (x1 x1' : s1.Idx → α)
    (x2 x2' : s2.Idx → α) (h : Shape.Concatenates [s0, s1, s2] t a) (e0 : x0 = x0') (e1 : x1 = x1') (e2 : x2 = x2') :
    concatenate t a [⟨s0, x0⟩, ⟨s1, x1⟩, ⟨s2, x2⟩] h = concatenate t a [⟨s0, x0'⟩, ⟨s1, x1'⟩, ⟨s2, x2'⟩] h := by
  subst e0 e1 e2; rfl

/-- One simplifier pass over a list of host lines that may hold three-operand lines, reading each operand of such a line. -/
macro "after_results_operands3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, cons3_one, cons3_two, cons2_one]))

end Idealize.ShloMosaic.StableHlo
-- ==== Proof.IdealValue.lean ====
/-
  The kernel program's result as a function of its arguments, at the exact extended reals.

  Each of the two layers runs as: a stretch of host operations laying the three weight matrices side by side and the bias
  (after 128 zeros) into one row; a region computing the fused product, one block of 5000 rows per grid point; a stretch of
  host operations reading the product's three column blocks back and taking the two means over the edges; a region adding
  the three pieces and taking the positive part, block by block. Read through these four steps, each layer's result is the
  reference's layer of the node features it was given, so the program's result is the second layer of the first.
-/
import proofs.«130618_j3401614098589_1_alg».proof.Proof.IdealRun
import proofs.«130618_j3401614098589_1_alg».proof.Proof.IdealArray0
import proofs.«130618_j3401614098589_1_alg».proof.Proof.IdealArray1
import proofs.«130618_j3401614098589_1_alg».proof.Proof.IdealArray2
import proofs.«130618_j3401614098589_1_alg».proof.Proof.IdealArray3
import proofs.«130618_j3401614098589_1_alg».proof.Proof.LayerBridge
import proofs.«130618_j3401614098589_1_alg».proof.Proof.LibHostLines

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem Idealize.ShloMosaic.StableHlo
open Cert.Fused Cert.Gcn Cert.MatrixProduct

variable (m : (ℓ : Loc nD τ sig) → Buf (Elt Ideal) ℓ) (ρ : Dev nD → PrngReg) (c : Dev nD)

/-- Sixty-four zeros. -/
abbrev zeros64 : S64.Idx → EReal := broadcastInDim S64 ![] bcast_S_S64 (constant (F := Ideal) S_ .f32 0x00000000#32)
theorem zeros64_apply (q : Fin 64) : zeros64 (ix1 q) = 0 := zeros_apply bcast_S_S64 q

/-! ## The arguments the second layer reads are, at its entry, as launched -/

theorem W4_main_arg1 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## Layer 1 -/

/-- After the layer's first stretch of host operations the wide weight matrix is the three weight matrices side by side, -/
theorem wide0 : (W1 m ρ c (Proc.devRef .tc main_v4) : S64x192.Idx → EReal)
    = wide (m ((c : Thread nD τ).loc main_arg2) : S64x64.Idx → EReal) (m ((c : Thread nD τ).loc main_arg3)) (m ((c : Thread nD τ).loc main_arg4)) concatenates_S64x64_S64x64_S64x64_S64x192_d1 := by
  show StableHlo.after hostOps0 (W0 m ρ c) (Proc.devRef .tc main_v4) = _
  after_results_simp3
  unfold wide
  refine concat3_congr _ _ _ _ _ _ _ _ ?_ ?_ ?_ <;> (after_results_operands3 <;> first | rfl | exact W4_main_arg6 m ρ c | exact W4_main_arg7 m ρ c | exact W4_main_arg8 m ρ c | exact W4_main_arg9 m ρ c)

/-- the bias row is two splats of zero and the bias end to end, as one row, -/
theorem row0 : (W1 m ρ c (Proc.devRef .tc main_v7) : S1x192.Idx → EReal)
    = biasRow (zeros64) (m ((c : Thread nD τ).loc main_arg5) : S64.Idx → EReal) concatenates_S64_S64_S64_S192_d0 shapeCasts_S192_S1x192 := by
  show StableHlo.after hostOps0 (W0 m ρ c) (Proc.devRef .tc main_v7) = _
  after_results_simp3
  unfold biasRow
  refine congrArg (fun v => shapeCast S1x192 v shapeCasts_S192_S1x192) ?_
  refine concat3_congr _ _ _ _ _ _ _ _ ?_ ?_ ?_ <;> (after_results_operands3 <;> first | rfl | exact W4_main_arg6 m ρ c | exact W4_main_arg7 m ρ c | exact W4_main_arg8 m ρ c | exact W4_main_arg9 m ρ c)

/-- and the two rows of the edge list are read out. -/
theorem src0 : W1 m ρ c (Proc.devRef .tc main_v1) = Cert.ReferenceIdeal.Forms.sources (m ((c : Thread nD τ).loc main_arg1)) := by
  show StableHlo.after hostOps0 (W0 m ρ c) (Proc.devRef .tc main_v1) = _
  after_results_simp3
  rfl
theorem tgt0 : W1 m ρ c (Proc.devRef .tc main_v3) = Cert.ReferenceIdeal.Forms.targets (m ((c : Thread nD τ).loc main_arg1)) := by
  show StableHlo.after hostOps0 (W0 m ρ c) (Proc.devRef .tc main_v3) = _
  after_results_simp3
  rfl
/-- The node features the layer is applied to are untouched by that stretch. -/
theorem feat0 : W1 m ρ c (Proc.devRef .tc main_arg0) = m ((c : Thread nD τ).loc main_arg0) :=
  (StableHlo.after_of_writes_sub hostOps0 _ hostOps0_writes (by decide)).trans rfl

/-- The first region leaves the fused product. -/
theorem fusedProduct0 : (W2 m ρ c (Proc.devRef .tc main_v8) : S100000x192.Idx → EReal)
    = biasedProduct (m ((c : Thread nD τ).loc main_arg0) : S100000x64.Idx → EReal)
        (wide (m ((c : Thread nD τ).loc main_arg2) : S64x64.Idx → EReal) (m ((c : Thread nD τ).loc main_arg3)) (m ((c : Thread nD τ).loc main_arg4)) concatenates_S64x64_S64x64_S64x64_S64x192_d1)
        (biasRow (zeros64) (m ((c : Thread nD τ).loc main_arg5) : S64.Idx → EReal) concatenates_S64_S64_S64_S192_d0 shapeCasts_S192_S1x192) := by
  refine ((W2_arr m ρ c 3).trans (array0 (Vt1 m ρ) c)).trans ?_
  unfold product0
  rw [show Vt1 m ρ c main_arg0 = _ from feat0 m ρ c, show (Vt1 m ρ c main_v4 : S64x192.Idx → EReal) = _ from wide0 m ρ c,
    show (Vt1 m ρ c main_v7 : S1x192.Idx → EReal) = _ from row0 m ρ c]

/-- The second stretch of host operations reads the product's three column blocks and takes the two means. -/
theorem piece_r0 : (W3 m ρ c (Proc.devRef .tc main_v11) : S100000x64.Idx → EReal)
    = extractStridedSlice S100000x64 ![0, 128] (W2 m ρ c (Proc.devRef .tc main_v8) : S100000x192.Idx → EReal) slices_S100000x192_S100000x64_0_128 := by
  show StableHlo.after hostOps1 (W2 m ρ c) (Proc.devRef .tc main_v11) = _
  after_results_simp <;> rfl
theorem mean1_0 : (W3 m ρ c (Proc.devRef .tc main_v30) : S100000x64.Idx → EReal)
    = Cert.ReferenceIdeal.Forms.scatterMean (extractStridedSlice S100000x64 ![0, 0] (W2 m ρ c (Proc.devRef .tc main_v8) : S100000x192.Idx → EReal) slices_S100000x192_S100000x64_0_0)
        (W2 m ρ c (Proc.devRef .tc main_v1)) (W2 m ρ c (Proc.devRef .tc main_v3)) := by
  show StableHlo.after hostOps1 (W2 m ρ c) (Proc.devRef .tc main_v30) = _
  after_results_simp <;> rfl
theorem mean2_0 : (W3 m ρ c (Proc.devRef .tc main_v49) : S100000x64.Idx → EReal)
    = Cert.ReferenceIdeal.Forms.scatterMean (extractStridedSlice S100000x64 ![0, 64] (W2 m ρ c (Proc.devRef .tc main_v8) : S100000x192.Idx → EReal) slices_S100000x192_S100000x64_0_64)
        (W2 m ρ c (Proc.devRef .tc main_v3)) (W2 m ρ c (Proc.devRef .tc main_v1)) := by
  show StableHlo.after hostOps1 (W2 m ρ c) (Proc.devRef .tc main_v49) = _
  after_results_simp <;> rfl

/-- THE LAYER: the second region leaves the reference's layer of the node features. -/
theorem layer0_eq : (W4 m ρ c (Proc.devRef .tc main_v50) : S100000x64.Idx → EReal)
    = Cert.ReferenceIdeal.Forms.layer (m ((c : Thread nD τ).loc main_arg0) : S100000x64.Idx → EReal) (m ((c : Thread nD τ).loc main_arg1))
        (m ((c : Thread nD τ).loc main_arg2)) (m ((c : Thread nD τ).loc main_arg3)) (m ((c : Thread nD τ).loc main_arg4)) (m ((c : Thread nD τ).loc main_arg5)) := by
  refine ((W4_arr m ρ c 3).trans (array1 (Vt3 m ρ) c)).trans ?_
  unfold combined1
  rw [show (Vt3 m ρ c main_v11 : S100000x64.Idx → EReal) = _ from piece_r0 m ρ c,
    show (Vt3 m ρ c main_v30 : S100000x64.Idx → EReal) = _ from mean1_0 m ρ c,
    show (Vt3 m ρ c main_v49 : S100000x64.Idx → EReal) = _ from mean2_0 m ρ c,
    show W2 m ρ c (Proc.devRef .tc main_v1) = _ from (W2_of_ne m ρ c main_v1 (by decide)).trans (src0 m ρ c),
    show W2 m ρ c (Proc.devRef .tc main_v3) = _ from (W2_of_ne m ρ c main_v3 (by decide)).trans (tgt0 m ρ c),
    fusedProduct0 m ρ c]
  exact fused_layer _ _ _ _ _ _ zeros64 zeros64_apply _ _ _ _ _ _

/-! ## Layer 2 -/

/-- After the layer's first stretch of host operations the wide weight matrix is the three weight matrices side by side, -/
theorem wide1 : (W5 m ρ c (Proc.devRef .tc main_v55) : S64x192.Idx → EReal)
    = wide (m ((c : Thread nD τ).loc main_arg6) : S64x64.Idx → EReal) (m ((c : Thread nD τ).loc main_arg7)) (m ((c : Thread nD τ).loc main_arg8)) concatenates_S64x64_S64x64_S64x64_S64x192_d1 := by
  show StableHlo.after hostOps2 (W4 m ρ c) (Proc.devRef .tc main_v55) = _
  after_results_simp3
  unfold wide
  refine concat3_congr _ _ _ _ _ _ _ _ ?_ ?_ ?_ <;> (after_results_operands3 <;> first | rfl | exact W4_main_arg6 m ρ c | exact W4_main_arg7 m ρ c | exact W4_main_arg8 m ρ c | exact W4_main_arg9 m ρ c)

/-- the bias row is two splats of zero and the bias end to end, as one row, -/
theorem row1 : (W5 m ρ c (Proc.devRef .tc main_v58) : S1x192.Idx → EReal)
    = biasRow (zeros64) (m ((c : Thread nD τ).loc main_arg9) : S64.Idx → EReal) concatenates_S64_S64_S64_S192_d0 shapeCasts_S192_S1x192 := by
  show StableHlo.after hostOps2 (W4 m ρ c) (Proc.devRef .tc main_v58) = _
  after_results_simp3
  unfold biasRow
  refine congrArg (fun v => shapeCast S1x192 v shapeCasts_S192_S1x192) ?_
  refine concat3_congr _ _ _ _ _ _ _ _ ?_ ?_ ?_ <;> (after_results_operands3 <;> first | rfl | exact W4_main_arg6 m ρ c | exact W4_main_arg7 m ρ c | exact W4_main_arg8 m ρ c | exact W4_main_arg9 m ρ c)

/-- and the two rows of the edge list are read out. -/
theorem src1 : W5 m ρ c (Proc.devRef .tc main_v52) = Cert.ReferenceIdeal.Forms.sources (m ((c : Thread nD τ).loc main_arg1)) := by
  show StableHlo.after hostOps2 (W4 m ρ c) (Proc.devRef .tc main_v52) = _
  after_results_simp3
  rw [W4_main_arg1 m ρ c]
  rfl
theorem tgt1 : W5 m ρ c (Proc.devRef .tc main_v54) = Cert.ReferenceIdeal.Forms.targets (m ((c : Thread nD τ).loc main_arg1)) := by
  show StableHlo.after hostOps2 (W4 m ρ c) (Proc.devRef .tc main_v54) = _
  after_results_simp3
  rw [W4_main_arg1 m ρ c]
  rfl
/-- The node features the layer is applied to are untouched by that stretch. -/
theorem feat1 : W5 m ρ c (Proc.devRef .tc main_v50) = W4 m ρ c (Proc.devRef .tc main_v50) :=
  StableHlo.after_of_writes_sub hostOps2 _ hostOps2_writes (by decide)

/-- The first region leaves the fused product. -/
theorem fusedProduct1 : (W6 m ρ c (Proc.devRef .tc main_v59) : S100000x192.Idx → EReal)
    = biasedProduct (W4 m ρ c (Proc.devRef .tc main_v50) : S100000x64.Idx → EReal)
        (wide (m ((c : Thread nD τ).loc main_arg6) : S64x64.Idx → EReal) (m ((c : Thread nD τ).loc main_arg7)) (m ((c : Thread nD τ).loc main_arg8)) concatenates_S64x64_S64x64_S64x64_S64x192_d1)
        (biasRow (zeros64) (m ((c : Thread nD τ).loc main_arg9) : S64.Idx → EReal) concatenates_S64_S64_S64_S192_d0 shapeCasts_S192_S1x192) := by
  refine ((W6_arr m ρ c 3).trans (array2 (Vt5 m ρ) c)).trans ?_
  unfold product2
  rw [show Vt5 m ρ c main_v50 = _ from feat1 m ρ c, show (Vt5 m ρ c main_v55 : S64x192.Idx → EReal) = _ from wide1 m ρ c,
    show (Vt5 m ρ c main_v58 : S1x192.Idx → EReal) = _ from row1 m ρ c]

/-- The second stretch of host operations reads the product's three column blocks and takes the two means. -/
theorem piece_r1 : (W7 m ρ c (Proc.devRef .tc main_v62) : S100000x64.Idx → EReal)
    = extractStridedSlice S100000x64 ![0, 128] (W6 m ρ c (Proc.devRef .tc main_v59) : S100000x192.Idx → EReal) slices_S100000x192_S100000x64_0_128 := by
  show StableHlo.after hostOps3 (W6 m ρ c) (Proc.devRef .tc main_v62) = _
  after_results_simp <;> rfl
theorem mean1_1 : (W7 m ρ c (Proc.devRef .tc main_v81) : S100000x64.Idx → EReal)
    = Cert.ReferenceIdeal.Forms.scatterMean (extractStridedSlice S100000x64 ![0, 0] (W6 m ρ c (Proc.devRef .tc main_v59) : S100000x192.Idx → EReal) slices_S100000x192_S100000x64_0_0)
        (W6 m ρ c (Proc.devRef .tc main_v52)) (W6 m ρ c (Proc.devRef .tc main_v54)) := by
  show StableHlo.after hostOps3 (W6 m ρ c) (Proc.devRef .tc main_v81) = _
  after_results_simp <;> rfl
theorem mean2_1 : (W7 m ρ c (Proc.devRef .tc main_v100) : S100000x64.Idx → EReal)
    = Cert.ReferenceIdeal.Forms.scatterMean (extractStridedSlice S100000x64 ![0, 64] (W6 m ρ c (Proc.devRef .tc main_v59) : S100000x192.Idx → EReal) slices_S100000x192_S100000x64_0_64)
        (W6 m ρ c (Proc.devRef .tc main_v54)) (W6 m ρ c (Proc.devRef .tc main_v52)) := by
  show StableHlo.after hostOps3 (W6 m ρ c) (Proc.devRef .tc main_v100) = _
  after_results_simp <;> rfl

/-- THE LAYER: the second region leaves the reference's layer of the node features. -/
theorem layer1_eq : (W8 m ρ c (Proc.devRef .tc main_v101) : S100000x64.Idx → EReal)
    = Cert.ReferenceIdeal.Forms.layer (W4 m ρ c (Proc.devRef .tc main_v50) : S100000x64.Idx → EReal) (m ((c : Thread nD τ).loc main_arg1))
        (m ((c : Thread nD τ).loc main_arg6)) (m ((c : Thread nD τ).loc main_arg7)) (m ((c : Thread nD τ).loc main_arg8)) (m ((c : Thread nD τ).loc main_arg9)) := by
  refine ((W8_arr m ρ c 3).trans (array3 (Vt7 m ρ) c)).trans ?_
  unfold combined3
  rw [show (Vt7 m ρ c main_v62 : S100000x64.Idx → EReal) = _ from piece_r1 m ρ c,
    show (Vt7 m ρ c main_v81 : S100000x64.Idx → EReal) = _ from mean1_1 m ρ c,
    show (Vt7 m ρ c main_v100 : S100000x64.Idx → EReal) = _ from mean2_1 m ρ c,
    show W6 m ρ c (Proc.devRef .tc main_v52) = _ from (W6_of_ne m ρ c main_v52 (by decide)).trans (src1 m ρ c),
    show W6 m ρ c (Proc.devRef .tc main_v54) = _ from (W6_of_ne m ρ c main_v54 (by decide)).trans (tgt1 m ρ c),
    fusedProduct1 m ρ c]
  exact fused_layer _ _ _ _ _ _ zeros64 zeros64_apply _ _ _ _ _ _

/-- THE RESULT: the second layer of the first layer of the arguments. -/
theorem result_eq : (W8 m ρ c (Proc.devRef .tc main_v101) : S100000x64.Idx → EReal)
    = Cert.ReferenceIdeal.Forms.layer
        (Cert.ReferenceIdeal.Forms.layer (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)))
        (m ((c : Thread nD τ).loc main_arg1))
        (m ((c : Thread nD τ).loc main_arg6)) (m ((c : Thread nD τ).loc main_arg7)) (m ((c : Thread nD τ).loc main_arg8)) (m ((c : Thread nD τ).loc main_arg9)) := by
  rw [layer1_eq m ρ c, show (W4 m ρ c (Proc.devRef .tc main_v50) : S100000x64.Idx → EReal) = _ from layer0_eq m ρ c]

end Cert.KernelIdeal.Run

end
-- ==== Proof.lean ====
/-
  The certificate of a two-layer graph network's fused kernel against its reference.

  A layer maps the node features x, the edge list and three weight matrices W₁, W₂, Wᵣ with a bias b to
  max(x·Wᵣ + b + mean₁ + mean₂, 0), the two means taken over each node's incoming and outgoing edges of the rows of x·W₁ and
  x·W₂. The reference computes the three products separately. The kernel program computes them as ONE product of x by the
  three matrices side by side (plus a row of 128 zeros followed by the bias), in a pipelined region of twenty blocks of rows,
  reads the three pieces back as column blocks, takes the two means with the same host operations as the reference, and
  adds the pieces and takes the positive part in a second pipelined region. Over the extended reals the column blocks of the
  fused product are the three separate products, so both programs end with the second layer of the first layer of the
  arguments.

  * The two kernel programs' frames: each runs as eight segments (four stretches of host operations, four regions); no
    segment writes an argument array (the modules WordRun and IdealRun, the same text at the two instances).
  * The reference's frame: its run, with the result dropped.
  * The idealization rewrote nothing, so there is nothing to preserve.
  * The two results agree: IdealValue reads the kernel's result through its eight segments; RefForms reads the reference's.
-/
import proofs.«130618_j3401614098589_1_alg».proof.Defs
import proofs.«130618_j3401614098589_1_alg».proof.Proof.Gen.Kernel
import proofs.«130618_j3401614098589_1_alg».proof.Proof.Gen.KernelIdeal
import proofs.«130618_j3401614098589_1_alg».proof.Proof.Gen.ReferenceIdeal
import proofs.«130618_j3401614098589_1_alg».proof.Proof.Gen.Pre_finite_inputs
import proofs.«130618_j3401614098589_1_alg».proof.Proof.Gen.ReferenceIdeal.Run
import proofs.«130618_j3401614098589_1_alg».proof.Proof.WordRun
import proofs.«130618_j3401614098589_1_alg».proof.Proof.IdealRun
import proofs.«130618_j3401614098589_1_alg».proof.Proof.IdealValue
import proofs.«130618_j3401614098589_1_alg».proof.Proof.RefForms
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the second layer of the first layer of the arguments. -/
theorem algebraic : Cert.algebraic_KernelIdeal_ReferenceIdeal := by
  intro m ρ m' ρ' _ hagree
  refine ⟨fun c => Cert.ReferenceIdeal.Forms.layer
      (Cert.ReferenceIdeal.Forms.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Run.mem_uc Cert.KernelIdeal.main_v101 (by decide))).trans (Cert.KernelIdeal.Run.result_eq m ρ c),
      (h c _ (Cert.KernelIdeal.Run.mem_uc Cert.KernelIdeal.main_arg0 (by decide))).trans (Cert.KernelIdeal.Run.W8_main_arg0 m ρ c),
      (h c _ (Cert.KernelIdeal.Run.mem_uc Cert.KernelIdeal.main_arg1 (by decide))).trans (Cert.KernelIdeal.Run.W8_main_arg1 m ρ c),
      (h c _ (Cert.KernelIdeal.Run.mem_uc Cert.KernelIdeal.main_arg2 (by decide))).trans (Cert.KernelIdeal.Run.W8_main_arg2 m ρ c),
      (h c _ (Cert.KernelIdeal.Run.mem_uc Cert.KernelIdeal.main_arg3 (by decide))).trans (Cert.KernelIdeal.Run.W8_main_arg3 m ρ c),
      (h c _ (Cert.KernelIdeal.Run.mem_uc Cert.KernelIdeal.main_arg4 (by decide))).trans (Cert.KernelIdeal.Run.W8_main_arg4 m ρ c),
      (h c _ (Cert.KernelIdeal.Run.mem_uc Cert.KernelIdeal.main_arg5 (by decide))).trans (Cert.KernelIdeal.Run.W8_main_arg5 m ρ c),
      (h c _ (Cert.KernelIdeal.Run.mem_uc Cert.KernelIdeal.main_arg6 (by decide))).trans (Cert.KernelIdeal.Run.W8_main_arg6 m ρ c),
      (h c _ (Cert.KernelIdeal.Run.mem_uc Cert.KernelIdeal.main_arg7 (by decide))).trans (Cert.KernelIdeal.Run.W8_main_arg7 m ρ c),
      (h c _ (Cert.KernelIdeal.Run.mem_uc Cert.KernelIdeal.main_arg8 (by decide))).trans (Cert.KernelIdeal.Run.W8_main_arg8 m ρ c),
      (h c _ (Cert.KernelIdeal.Run.mem_uc Cert.KernelIdeal.main_arg9 (by decide))).trans (Cert.KernelIdeal.Run.W8_main_arg9 m ρ c)⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Forms.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
